-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v0_0)) (v3 : (c : Dev Cert.KernelIdeal.nD) → Buf (Elt Ideal) ((c.tc : Thread Cert.KernelIdeal.nD Cert.KernelIdeal.τ).loc Cert.KernelIdeal.main_v0_1)) (v4 : (c : Dev Cert.KernelIdeal.nD) → Buf (Elt Ideal) ((c.tc : Thread Cert.KernelIdeal.nD Cert.KernelIdeal.τ).loc Cert.KernelIdeal.main_v3_1)) (v5 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_v0_1) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S10x4096 : Shape := ⟨2, ![10, 4096]⟩
abbrev S10 : Shape := ⟨1, ![10]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S10x4096 : S_.BroadcastsInDim S10x4096 (![] : Fin 0 → Fin S10x4096.rank)
  reducesTo_S10x4096_S_d0_1 : S10x4096.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S4096x4096 .f32) (main_arg5 : FVec F S4096x4096 .f32) (main_arg6 : FVec F S10x4096 .f32) (main_arg7 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S10x4096 .f32 := Host.absf main_arg6
  let main_cst_10 : FVec F S_ .f32 := constant S_ .f32 0x7F800000#32
  let main_v30 : FVec F S10x4096 .f32 := broadcastInDim S10x4096 ![] bcast_S_S10x4096 main_cst_10
  let main_v31 : IVec S10x4096 1 := cmpf .olt main_v29 main_v30
  let main_c_11 : IVec S_ 1 := constantI S_ 1 1#1
  let main_v32 : IVec S_ 1 := (fun x v => Host.reduce IntOp.andi x v reducesTo_S10x4096_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096x4096 .f32) (main_arg5 : FVec F S4096x4096 .f32) (main_arg6 : FVec F S10x4096 .f32) (main_arg7 : FVec F S10 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x4096 : Shape := ⟨2, ![4096, 4096]⟩
abbrev S10x4096 : Shape := ⟨2, ![10, 4096]⟩
abbrev S10 : Shape := ⟨1, ![10]⟩
abbrev S1024x512 : Shape := ⟨2, ![1024, 512]⟩
abbrev S1024x1024 : Shape := ⟨2, ![1024, 1024]⟩
abbrev S4096x10 : Shape := ⟨2, ![4096, 10]⟩
abbrev S1x10 : Shape := ⟨2, ![1, 10]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 34
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S10x4096, .f32⟩
  | .hbm, ⟨7, _⟩ => ⟨S10, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .bf16⟩
  | .hbm, ⟨12, _⟩ => ⟨S4096x4096, .bf16⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x10, .f32⟩
  | .hbm, ⟨18, _⟩ => ⟨S4096x10, .f32⟩
  | .hbm, ⟨19, _⟩ => ⟨S1x10, .f32⟩
  | .hbm, ⟨20, _⟩ => ⟨S4096x10, .f32⟩
  | .hbm, ⟨21, _⟩ => ⟨S4096x10, .f32⟩
  | .hbm, ⟨22, _⟩ => ⟨S4096x10, .f32⟩
  | .hbm, ⟨23, _⟩ => ⟨S4096x10, .f32⟩
  | .hbm, ⟨24, _⟩ => ⟨S_, .f32⟩
  | .hbm, ⟨25, _⟩ => ⟨S4096x10, .f32⟩
  | .hbm, ⟨26, _⟩ => ⟨S4096x10, .f32⟩
  | .hbm, ⟨27, _⟩ => ⟨S_, .f32⟩
  | .hbm, ⟨28, _⟩ => ⟨S4096x10, .f32⟩
  | .hbm, ⟨29, _⟩ => ⟨S4096x10, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x10, .f32⟩
  | .hbm, ⟨37, _⟩ => ⟨S4096x10, .f32⟩
  | .hbm, ⟨38, _⟩ => ⟨S4096x10, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1, .f32⟩
  | .hbm, ⟨43, _⟩ => ⟨S4096x10, .f32⟩
  | .hbm, ⟨44, _⟩ => ⟨S4096x10, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v15 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  natLt_1_32 : 1 < 32
  transposes_S10x4096_S4096x10_1_0 : S10x4096.Transposes [1, 0] S4096x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S4096x10 : S_.BroadcastsInDim S4096x10 (![] : Fin 0 → Fin S4096x10.rank)
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  dot_S1024x1024_S1024x1024_S1024x1024_1_1_0_0_n_n_wf : DotDims.WF S1024x1024 S1024x1024 S1024x1024 [1] [1] [0] [0] [] []
  dot_S4096x4096_S4096x10_S4096x10_1_0_0_1_n_n_wf : DotDims.WF S4096x4096 S4096x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .bf16 = 32 ∨ (Rect.block (s := S4096x4096) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x4096.size a
  hwx0_6 : ∀ i : grid0.Coords, EltTy.bits .bf16 = 32 ∨ (Rect.block (s := S4096x4096) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .f32 = 32 ∨ (Rect.block (s := S4096x4096) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .f32 = 32 ∨ (Rect.block (s := S4096x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .f32 = 32 ∨ (Rect.block (s := S4096x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x4096.size a
  hwx2_2 : ∀ i : grid2.Coords, EltTy.bits .f32 = 32 ∨ (Rect.block (s := S4096x4096) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x4096.size a
  hwx2_3 : ∀ i : grid2.Coords, EltTy.bits .f32 = 32 ∨ (Rect.block (s := S4096x4096) S1024x512.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S4096x4096_S4096x10_S4096x10_1_0_0_1_n_n : DotDims S4096x4096 S4096x10 S4096x10 where
  lhsContracting := [1]
  rhsContracting := [0]
  lhsNonContracting := [0]
  rhsNonContracting := [1]
  lhsBatch := []
  rhsBatch := []
  wf := dot_S4096x4096_S4096x10_S4096x10_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S1024x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S10x4096 : Shape := ⟨2, ![10, 4096]⟩
abbrev S10 : Shape := ⟨1, ![10]⟩
abbrev S_ : Shape := ⟨0, ![]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S10x4096, .f32⟩
  | .hbm, ⟨7, _⟩ => ⟨S10, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S4096x4096, .f32⟩
  | .hbm, ⟨32, _⟩ => ⟨S4096x10, .f32⟩
  | .hbm, ⟨33, _⟩ => ⟨S4096x10, .f32⟩
  | .hbm, ⟨34, _⟩ => ⟨S1x10, .f32⟩
  | .hbm, ⟨35, _⟩ => ⟨S4096x10, .f32⟩
  | .hbm, ⟨36, _⟩ => ⟨S4096x10, .f32⟩
  | .hbm, ⟨37, _⟩ => ⟨S4096x10, .f32⟩
  | .hbm, ⟨38, _⟩ => ⟨S4096x10, .f32⟩
  | .hbm, ⟨39, _⟩ => ⟨S_, .f32⟩
  | .hbm, ⟨40, _⟩ => ⟨S4096x10, .f32⟩
  | .hbm, ⟨41, _⟩ => ⟨S4096x10, .f32⟩
  | .hbm, ⟨42, _⟩ => ⟨S_, .f32⟩
  | .hbm, ⟨43, _⟩ => ⟨S4096x10, .f32⟩
  | .hbm, ⟨44, _⟩ => ⟨S4096x10, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x10, .f32⟩
  | .hbm, ⟨52, _⟩ => ⟨S4096x10, .f32⟩
  | .hbm, ⟨53, _⟩ => ⟨S4096x10, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096x10, .f32⟩
  | .hbm, ⟨59, _⟩ => ⟨S4096x10, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_cst_1 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  transposes_S10x4096_S4096x10_1_0 : S10x4096.Transposes [1, 0] S4096x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S4096x10 : S_.BroadcastsInDim S4096x10 (![] : Fin 0 → Fin S4096x10.rank)
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  dot_S4096x4096_S4096x4096_S4096x4096_1_0_0_1_n_n_wf : DotDims.WF S4096x4096 S4096x4096 S4096x4096 [1] [0] [0] [1] [] []
  dot_S4096x4096_S4096x10_S4096x10_1_0_0_1_n_n_wf : DotDims.WF S4096x4096 S4096x10 S4096x10 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x10_S4096x10_1_0_0_1_n_n : DotDims S4096x4096 S4096x10 S4096x10 where
  lhsContracting := [1]
  rhsContracting := [0]
  lhsNonContracting := [0]
  rhsNonContracting := [1]
  lhsBatch := []
  rhsBatch := []
  wf := dot_S4096x4096_S4096x10_S4096x10_1_0_0_1_n_n_wf

class Facts : Prop extends Facts₀ where

variable [Facts]
-- ==== Proof.Spec.lean ====
/-
  The specification: what the six results are, as functions of the eight argument arrays, on the extended reals.

  All arrays are 4096 × 4096 except the classifier's weights (10 × 4096) and bias (10). With a = 0x3F59999A and
  b = 0x3F666666 read as the extended reals those float patterns denote:

    eps0 = a · prev_eps0 + x                       eps1 = b · prev_eps1 + eps0
    isyn = a · prev_isyn + x · Wᵀ                   pv   = eps1 · Wᵀ
    vmem = b · prev_vmem + isyn                     spike = [vmem > 1/2] as 0 or 1

  where (u · Wᵀ)(p, q) = Σ_k u(p, k) · W(q, k), one sum over all 4096 values of k. The head applied to pv is carried
  as an opaque function in the proof and is not spelled here.
-/
import Idealize.ShloMosaic.PureOps.Ideal
import Idealize.ShloMosaic.Lib.ValueIdx

noncomputable section

namespace Cert.Spec

open Idealize.ShloMosaic Idealize.ShloMosaic.ValueIdx

/-- The square shape of every large array. -/
abbrev SQ : Shape := ⟨2, ![4096, 4096]⟩

/-- A 4096 × 4096 array of extended reals. -/
abbrev Arr : Type := SQ.Idx → EReal

/-- The decay of the synaptic current and of the first trace, as the extended real its float pattern denotes. -/
def decayS : EReal := Ideal.ofBits .f32 0x3F59999A#32
/-- The decay of the membrane potential and of the second trace. -/
def decayM : EReal := Ideal.ofBits .f32 0x3F666666#32
/-- The firing threshold. -/
def thresh : EReal := Ideal.ofBits .f32 0x3F000000#32

/-- The first trace. -/
def eps0 (x pe0 : Arr) : Arr := fun i => decayS * pe0 i + x i
/-- The second trace. -/
def eps1 (x pe0 pe1 : Arr) : Arr := fun i => decayM * pe1 i + eps0 x pe0 i
/-- The product u · Wᵀ: entry (p, q) is the sum over k of u(p, k) · W(q, k). -/
def mulT (u w : Arr) : Arr := fun i => ∑ k : Fin 4096, u (ix2 (i 0) k) * w (ix2 (i 1) k)
/-- The synaptic current. -/
def isyn (x pis w : Arr) : Arr := fun i => decayS * pis i + mulT x w i
/-- The presynaptic drive of the head. -/
def pv (x pe0 pe1 w : Arr) : Arr := mulT (eps1 x pe0 pe1) w
/-- The membrane potential. -/
def vmem (x pis pvm w : Arr) : Arr := fun i => decayM * pvm i + isyn x pis w i
/-- The spikes of a potential: 1 where it exceeds the threshold, 0 elsewhere. -/
def spike (v : Arr) : Arr := fun i => (((Ideal.cmp .ogt (v i) thresh).toNat : ℝ) : EReal)

end Cert.Spec

end
-- ==== Proof.RunVals.lean ====
/-
  The idealized kernel program, run: every weakly fair execution of its entry point terminates without a fault, and in
  the final state every buffer that outlives the regions holds what the program's own chain of stages leaves there —
  region 0's write-backs, the cast of W, region 1's and region 2's write-backs, then the head's host operations, each
  stage reading what the stage before left. The six results and the eight arguments are among those buffers.
-/
import proofs.«117062_j68977174773809_2_alg».proof.Proof.Gen.KernelIdeal.Frame

set_option maxRecDepth 16384

noncomputable section

namespace Cert.KernelIdeal.RunVals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every surviving buffer named: the final memory agrees with the last boundary's contents on every
    buffer that is not scoped to a region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The six results and the eight arguments, read off the run. -/
theorem run_results : θ_run defs (onTc (τ := τ) (main (F := F))) ⟨m, fun _ => 0, ρ⟩ (fun r => ∀ c : Dev nD,
      r.2.mem ((c.tc : Thread nD τ).loc main_v2_0) = W6 m ρ c (Proc.devRef .tc main_v2_0)
      ∧ r.2.mem ((c.tc : Thread nD τ).loc main_v3_0) = W6 m ρ c (Proc.devRef .tc main_v3_0)
      ∧ r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v3_1) = W6 m ρ c (Proc.devRef .tc main_v3_1)
      ∧ r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v2_0 (by decide)),
       h c _ (mem_uc main_v3_0 (by decide)),
       h c _ (mem_uc main_v0_0 (by decide)),
       h c _ (mem_uc main_v0_1 (by decide)),
       h c _ (mem_uc main_v3_1 (by decide)),
       h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.RunVals

end
-- ==== Proof.Walk.lean ====
/-
  The kernel program's six results, stage by stage. The program is a chain: region 0 (the two traces and the
  narrowed copies of x and of the second trace), the narrowing of W, region 1 (the two products with Wᵀ, accumulated
  over the blocks of the contracted axis, and the synaptic current), region 2 (the membrane potential and the spikes),
  and the head's host operations. Each stage reads what the stage before left and writes buffers of its own, so a
  buffer's final contents are what its one writer left there. Given what each region leaves in its output arrays as a
  function of what it finds in its input arrays, the results are the specification's functions of the arguments.
-/
import proofs.«117062_j68977174773809_2_alg».proof.Proof.Gen.KernelIdeal.Frame
import proofs.«117062_j68977174773809_2_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Walk

open Cert.KernelIdeal Cert.KernelIdeal.Gen

/-- What the three regions leave in their output arrays, each as a function of the contents `V` the region finds. -/
structure Regions : Prop where
  eps0 : ∀ (V : (c : Dev nD) → (b : Ref sig .tc) → Buf (Elt Ideal) ((c : Thread nD τ).loc b)) (c : Dev nD),
    (dat0 (F := Ideal) V c).arrAt 3 cfg0.N = Cert.Spec.eps0 (V c main_arg0) (V c main_arg3)
  eps1 : ∀ (V : (c : Dev nD) → (b : Ref sig .tc) → Buf (Elt Ideal) ((c : Thread nD τ).loc b)) (c : Dev nD),
    (dat0 (F := Ideal) V c).arrAt 4 cfg0.N = Cert.Spec.eps1 (V c main_arg0) (V c main_arg3) (V c main_arg4)
  xb : ∀ (V : (c : Dev nD) → (b : Ref sig .tc) → Buf (Elt Ideal) ((c : Thread nD τ).loc b)) (c : Dev nD),
    (dat0 (F := Ideal) V c).arrAt 5 cfg0.N = (V c main_arg0 : Cert.Spec.Arr)
  e1b : ∀ (V : (c : Dev nD) → (b : Ref sig .tc) → Buf (Elt Ideal) ((c : Thread nD τ).loc b)) (c : Dev nD),
    (dat0 (F := Ideal) V c).arrAt 6 cfg0.N = Cert.Spec.eps1 (V c main_arg0) (V c main_arg3) (V c main_arg4)
  isyn : ∀ (V : (c : Dev nD) → (b : Ref sig .tc) → Buf (Elt Ideal) ((c : Thread nD τ).loc b)) (c : Dev nD),
    (dat1 (F := Ideal) V c).arrAt 4 cfg1.N = Cert.Spec.isyn (V c main_v0_2) (V c main_arg1) (V c main_v1)
  pv : ∀ (V : (c : Dev nD) → (b : Ref sig .tc) → Buf (Elt Ideal) ((c : Thread nD τ).loc b)) (c : Dev nD),
    (dat1 (F := Ideal) V c).arrAt 5 cfg1.N = Cert.Spec.mulT (V c main_v0_3) (V c main_v1)
  vmem : ∀ (V : (c : Dev nD) → (b : Ref sig .tc) → Buf (Elt Ideal) ((c : Thread nD τ).loc b)) (c : Dev nD),
    (dat2 (F := Ideal) V c).arrAt 2 cfg2.N = (fun i => Cert.Spec.decayM * V c main_arg2 i + V c main_v2_0 i : Cert.Spec.Arr)
  spike : ∀ (V : (c : Dev nD) → (b : Ref sig .tc) → Buf (Elt Ideal) ((c : Thread nD τ).loc b)) (c : Dev nD),
    (dat2 (F := Ideal) V c).arrAt 3 cfg2.N = Cert.Spec.spike (fun i => Cert.Spec.decayM * V c main_arg2 i + V c main_v2_0 i)

variable (R : Regions)
variable (m : (ℓ : Loc nD τ sig) → Buf (Elt Ideal) ℓ) (ρ : Dev nD → PrngReg)

/-! ## After region 0 -/

theorem W1_arg (c : Dev nD) (b : Ref sig .tc) (hb : ∀ w, Pipeline.arrRef spec0 w ≠ b) :
    W1 m ρ c (Proc.devRef .tc b) = m ((c : Thread nD τ).loc b) := W1_of_ne m ρ c b hb

include R in
theorem W1_eps0 (c : Dev nD) : W1 m ρ c (Proc.devRef .tc main_v0_0)
    = Cert.Spec.eps0 (m ((c : Thread nD τ).loc main_arg0)) (m ((c : Thread nD τ).loc main_arg3)) :=
  (W1_arr m ρ c 3).trans (R.eps0 (V0 m ρ) c)
include R in
theorem W1_eps1 (c : Dev nD) : W1 m ρ c (Proc.devRef .tc main_v0_1)
    = Cert.Spec.eps1 (m ((c : Thread nD τ).loc main_arg0)) (m ((c : Thread nD τ).loc main_arg3)) (m ((c : Thread nD τ).loc main_arg4)) :=
  (W1_arr m ρ c 4).trans (R.eps1 (V0 m ρ) c)
include R in
theorem W1_xb (c : Dev nD) : W1 m ρ c (Proc.devRef .tc main_v0_2) = (m ((c : Thread nD τ).loc main_arg0) : Cert.Spec.Arr) :=
  (W1_arr m ρ c 5).trans (R.xb (V0 m ρ) c)
include R in
theorem W1_e1b (c : Dev nD) : W1 m ρ c (Proc.devRef .tc main_v0_3)
    = Cert.Spec.eps1 (m ((c : Thread nD τ).loc main_arg0)) (m ((c : Thread nD τ).loc main_arg3)) (m ((c : Thread nD τ).loc main_arg4)) :=
  (W1_arr m ρ c 6).trans (R.e1b (V0 m ρ) c)

/-! ## After the narrowing of W -/

/-- A buffer other than the narrowed copy of W is not written by the narrowing. -/
theorem W2_keep (c : Dev nD) (b : Ref sig .tc) (hb : b ≠ main_v1) :
    W2 m ρ c (Proc.devRef .tc b) = W1 m ρ c (Proc.devRef .tc b) :=
  StableHlo.after_of_forall_not_mem _ _ (List.forall_iff_forall_mem.mp (by
      simp only [hostOps1, List.Forall, StableHlo.unary_writes, Finset.mem_singleton]
      exact StableHlo.devRef_ne_of_ne hb))

/-- The narrowed copy of W holds W: a change of float format is the identity on the extended reals. -/
theorem W2_wb (c : Dev nD) : W2 m ρ c (Proc.devRef .tc main_v1) = (m ((c : Thread nD τ).loc main_arg5) : Cert.Spec.Arr) := by
  have h := W1_arg m ρ c main_arg5 (by decide)
  show StableHlo.after hostOps1 (W1 m ρ c) (Proc.devRef .tc main_v1) = _
  after_results
  rw [h]
  rfl

/-! ## After region 1 -/

theorem W3_keep (c : Dev nD) (b : Ref sig .tc) (hb : ∀ w, Pipeline.arrRef spec1 w ≠ b) :
    W3 m ρ c (Proc.devRef .tc b) = W2 m ρ c (Proc.devRef .tc b) := W3_of_ne m ρ c b hb

include R in
theorem W3_isyn (c : Dev nD) : W3 m ρ c (Proc.devRef .tc main_v2_0)
    = Cert.Spec.isyn (m ((c : Thread nD τ).loc main_arg0)) (m ((c : Thread nD τ).loc main_arg1)) (m ((c : Thread nD τ).loc main_arg5)) := by
  refine (W3_arr m ρ c 4).trans ((R.isyn (V2 m ρ) c).trans ?_)
  show Cert.Spec.isyn (W2 m ρ c (Proc.devRef .tc main_v0_2)) (W2 m ρ c (Proc.devRef .tc main_arg1)) (W2 m ρ c (Proc.devRef .tc main_v1)) = _
  rw [W2_keep m ρ c main_v0_2 (by decide), W1_xb R m ρ c, W2_keep m ρ c main_arg1 (by decide), W1_arg m ρ c main_arg1 (by decide), W2_wb m ρ c]

include R in
theorem W3_pv (c : Dev nD) : W3 m ρ c (Proc.devRef .tc main_v2_1)
    = Cert.Spec.pv (m ((c : Thread nD τ).loc main_arg0)) (m ((c : Thread nD τ).loc main_arg3)) (m ((c : Thread nD τ).loc main_arg4)) (m ((c : Thread nD τ).loc main_arg5)) := by
  refine (W3_arr m ρ c 5).trans ((R.pv (V2 m ρ) c).trans ?_)
  show Cert.Spec.mulT (W2 m ρ c (Proc.devRef .tc main_v0_3)) (W2 m ρ c (Proc.devRef .tc main_v1)) = _
  rw [W2_keep m ρ c main_v0_3 (by decide), W1_e1b R m ρ c, W2_wb m ρ c]
  rfl

/-! ## After region 2 -/

theorem W4_keep (c : Dev nD) (b : Ref sig .tc) (hb : ∀ w, Pipeline.arrRef spec2 w ≠ b) :
    W4 m ρ c (Proc.devRef .tc b) = W3 m ρ c (Proc.devRef .tc b) := W4_of_ne m ρ c b hb

/-- Region 2 reads the synaptic current and leaves it as it found it. -/
theorem W4_isyn_kept (c : Dev nD) : W4 m ρ c (Proc.devRef .tc main_v2_0) = W3 m ρ c (Proc.devRef .tc main_v2_0) :=
  (W4_arr m ρ c 1).trans (((dat2 (V3 m ρ) c).arrAt_in 1 rfl _).trans (A_eq2 (V3 m ρ) c 1))

include R in
theorem W4_vmem (c : Dev nD) : W4 m ρ c (Proc.devRef .tc main_v3_0)
    = Cert.Spec.vmem (m ((c : Thread nD τ).loc main_arg0)) (m ((c : Thread nD τ).loc main_arg1)) (m ((c : Thread nD τ).loc main_arg2)) (m ((c : Thread nD τ).loc main_arg5)) := by
  refine (W4_arr m ρ c 2).trans ((R.vmem (V3 m ρ) c).trans ?_)
  show (fun i => Cert.Spec.decayM * W3 m ρ c (Proc.devRef .tc main_arg2) i + W3 m ρ c (Proc.devRef .tc main_v2_0) i : Cert.Spec.Arr) = _
  rw [W3_keep m ρ c main_arg2 (by decide), W2_keep m ρ c main_arg2 (by decide), W1_arg m ρ c main_arg2 (by decide), W3_isyn R m ρ c]
  rfl

include R in
theorem W4_spike (c : Dev nD) : W4 m ρ c (Proc.devRef .tc main_v3_1)
    = Cert.Spec.spike (Cert.Spec.vmem (m ((c : Thread nD τ).loc main_arg0)) (m ((c : Thread nD τ).loc main_arg1)) (m ((c : Thread nD τ).loc main_arg2)) (m ((c : Thread nD τ).loc main_arg5))) := by
  refine (W4_arr m ρ c 3).trans ((R.spike (V3 m ρ) c).trans ?_)
  show Cert.Spec.spike (fun i => Cert.Spec.decayM * W3 m ρ c (Proc.devRef .tc main_arg2) i + W3 m ρ c (Proc.devRef .tc main_v2_0) i : Cert.Spec.Arr) = _
  rw [W3_keep m ρ c main_arg2 (by decide), W2_keep m ρ c main_arg2 (by decide), W1_arg m ρ c main_arg2 (by decide), W3_isyn R m ρ c]
  rfl

/-! ## The head's host operations write none of the first five results -/

theorem W6_keep (c : Dev nD) (b : Ref sig .tc)
    (h3 : ∀ op ∈ (hostOps3 : List (HloOp τ sig (Elt Ideal))), Proc.devRef .tc b ∉ op.writes)
    (h31 : ∀ op ∈ (hostOps3_1 : List (HloOp τ sig (Elt Ideal))), Proc.devRef .tc b ∉ op.writes) :
    W6 m ρ c (Proc.devRef .tc b) = W4 m ρ c (Proc.devRef .tc b) :=
  (StableHlo.after_of_forall_not_mem _ _ h31).trans (StableHlo.after_of_forall_not_mem _ _ h3)

theorem nw3 (b : Ref sig .tc) (hb : b ∉ ([main_v4, main_v5, main_v6, main_v7, main_v8, main_v9, main_v10, main_cst, main_v11, main_v12, main_cst_0, main_v13, main_v14] : List (Ref sig .tc))) :
    ∀ op ∈ (hostOps3 : List (HloOp τ sig (Elt Ideal))), Proc.devRef .tc b ∉ op.writes := by
  simp only [List.mem_cons, List.not_mem_nil, or_false, not_or] at hb
  refine List.forall_iff_forall_mem.mp ?_
  simp only [hostOps3, List.Forall, StableHlo.nullary_writes, StableHlo.unary_writes, StableHlo.binary_writes, Finset.mem_singleton]
  refine ⟨?_, ?_, ?_, ?_, ?_, ?_, ?_, ?_, ?_, ?_, ?_, ?_, ?_⟩ <;> exact StableHlo.devRef_ne_of_ne (by tauto)

theorem nw31 (b : Ref sig .tc) (hb : b ∉ ([main_call0_cst, main_call0_v0, main_call0_cst_0, main_call0_v1, main_call0_v2, main_call0_v3, main_call0_v4, main_call0_v5, main_call0_v6, main_call0_cst_1, main_call0_v7, main_call0_v8, main_call0_v9, main_call0_v10, main_v15] : List (Ref sig .tc))) :
    ∀ op ∈ (hostOps3_1 : List (HloOp τ sig (Elt Ideal))), Proc.devRef .tc b ∉ op.writes := by
  simp only [List.mem_cons, List.not_mem_nil, or_false, not_or] at hb
  refine List.forall_iff_forall_mem.mp ?_
  simp only [hostOps3_1, List.Forall, StableHlo.nullary_writes, StableHlo.unary_writes, StableHlo.binary_writes, Finset.mem_singleton]
  refine ⟨?_, ?_, ?_, ?_, ?_, ?_, ?_, ?_, ?_, ?_, ?_, ?_, ?_, ?_, ?_⟩ <;> exact StableHlo.devRef_ne_of_ne (by tauto)

/-! ## The results -/

include R in
theorem final_isyn (c : Dev nD) : W6 m ρ c (Proc.devRef .tc main_v2_0)
    = Cert.Spec.isyn (m ((c : Thread nD τ).loc main_arg0)) (m ((c : Thread nD τ).loc main_arg1)) (m ((c : Thread nD τ).loc main_arg5)) :=
  (W6_keep m ρ c main_v2_0 (nw3 _ (by decide)) (nw31 _ (by decide))).trans ((W4_isyn_kept m ρ c).trans (W3_isyn R m ρ c))

include R in
theorem final_vmem (c : Dev nD) : W6 m ρ c (Proc.devRef .tc main_v3_0)
    = Cert.Spec.vmem (m ((c : Thread nD τ).loc main_arg0)) (m ((c : Thread nD τ).loc main_arg1)) (m ((c : Thread nD τ).loc main_arg2)) (m ((c : Thread nD τ).loc main_arg5)) :=
  (W6_keep m ρ c main_v3_0 (nw3 _ (by decide)) (nw31 _ (by decide))).trans (W4_vmem R m ρ c)

include R in
theorem final_eps0 (c : Dev nD) : W6 m ρ c (Proc.devRef .tc main_v0_0)
    = Cert.Spec.eps0 (m ((c : Thread nD τ).loc main_arg0)) (m ((c : Thread nD τ).loc main_arg3)) :=
  (W6_keep m ρ c main_v0_0 (nw3 _ (by decide)) (nw31 _ (by decide))).trans
    ((W4_keep m ρ c main_v0_0 (by decide)).trans ((W3_keep m ρ c main_v0_0 (by decide)).trans
      ((W2_keep m ρ c main_v0_0 (by decide)).trans (W1_eps0 R m ρ c))))

include R in
theorem final_eps1 (c : Dev nD) : W6 m ρ c (Proc.devRef .tc main_v0_1)
    = Cert.Spec.eps1 (m ((c : Thread nD τ).loc main_arg0)) (m ((c : Thread nD τ).loc main_arg3)) (m ((c : Thread nD τ).loc main_arg4)) :=
  (W6_keep m ρ c main_v0_1 (nw3 _ (by decide)) (nw31 _ (by decide))).trans
    ((W4_keep m ρ c main_v0_1 (by decide)).trans ((W3_keep m ρ c main_v0_1 (by decide)).trans
      ((W2_keep m ρ c main_v0_1 (by decide)).trans (W1_eps1 R m ρ c))))

include R in
theorem final_spike (c : Dev nD) : W6 m ρ c (Proc.devRef .tc main_v3_1)
    = Cert.Spec.spike (Cert.Spec.vmem (m ((c : Thread nD τ).loc main_arg0)) (m ((c : Thread nD τ).loc main_arg1)) (m ((c : Thread nD τ).loc main_arg2)) (m ((c : Thread nD τ).loc main_arg5))) :=
  (W6_keep m ρ c main_v3_1 (nw3 _ (by decide)) (nw31 _ (by decide))).trans (W4_spike R m ρ c)

include R in
/-- What the head reads: the second product, and the classifier's weights and bias as launched. -/
theorem head_in_pv (c : Dev nD) : W4 m ρ c (Proc.devRef .tc main_v2_1)
    = Cert.Spec.pv (m ((c : Thread nD τ).loc main_arg0)) (m ((c : Thread nD τ).loc main_arg3)) (m ((c : Thread nD τ).loc main_arg4)) (m ((c : Thread nD τ).loc main_arg5)) :=
  (W4_keep m ρ c main_v2_1 (by decide)).trans (W3_pv R m ρ c)

theorem head_in_arg (c : Dev nD) (b : Ref sig .tc) (h2 : ∀ w, Pipeline.arrRef spec2 w ≠ b) (h1 : ∀ w, Pipeline.arrRef spec1 w ≠ b)
    (hb : b ≠ main_v1) (h0 : ∀ w, Pipeline.arrRef spec0 w ≠ b) : W4 m ρ c (Proc.devRef .tc b) = m ((c : Thread nD τ).loc b) :=
  (W4_keep m ρ c b h2).trans ((W3_keep m ρ c b h1).trans ((W2_keep m ρ c b hb).trans (W1_arg m ρ c b h0)))

end Cert.KernelIdeal.Walk

end
-- ==== Proof.Region0.lean ====
/-
  The trace kernel (region 0) as whole arrays. Its grid is 4 × 8; every window holds the 1024 × 512 block (i, k) of
  its array at point (i, k), and every output block is written back at every point. Entry by entry the body computes
  a · prev_eps0 + x and b · prev_eps1 + (a · prev_eps0 + x), and copies x and the second trace into narrower formats,
  which changes nothing on the extended reals. The blocks tile the arrays, so each output array ends as that function
  of the arrays the region finds.
-/
import proofs.«117062_j68977174773809_2_alg».proof.Proof.Gen.KernelIdeal.Frame
import proofs.«117062_j68977174773809_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.RegionVals

open Cert.KernelIdeal Cert.KernelIdeal.Gen

variable (V : (c : Dev nD) → (b : Ref sig .tc) → Buf (Elt Ideal) ((c : Thread nD τ).loc b))

/-- The zero offset of a whole-block access, as the constant function. -/
theorem r0_offset_zero : (![0, 0] : Fin 2 → Nat) = fun _ => 0 := funext fun a => by fin_cases a <;> rfl

/-- Every window of the region has the same index map: point t has block index (t / 8, t % 8). -/
theorem r0_index : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8)
    ∧ (win0_4.index t (0 : Fin 2) = t.val / 8 ∧ win0_4.index t (1 : Fin 2) = t.val % 8)
    ∧ (win0_5.index t (0 : Fin 2) = t.val / 8 ∧ win0_5.index t (1 : Fin 2) = t.val % 8)
    ∧ (win0_6.index t (0 : Fin 2) = t.val / 8 ∧ win0_6.index t (1 : Fin 2) = t.val % 8) :=
  (by decide +kernel : ∀ t : Fin grid0.N, _)

/-- An element of a window's block at point t sits, on each axis, at block index times block size plus its own
    coordinate. All the region's windows have the same index map, so the element j of every window's block at t sits
    at the same place of its array. -/
theorem r0_emb_eq (t : Fin cfg0.N) (j : S1024x512.Idx) :
    ((cfg0.win 0).blk t).view.emb j = ((cfg0.win 3).blk t).view.emb j
    ∧ ((cfg0.win 1).blk t).view.emb j = ((cfg0.win 3).blk t).view.emb j
    ∧ ((cfg0.win 2).blk t).view.emb j = ((cfg0.win 3).blk t).view.emb j
    ∧ ((cfg0.win 4).blk t).view.emb j = ((cfg0.win 3).blk t).view.emb j
    ∧ ((cfg0.win 5).blk t).view.emb j = ((cfg0.win 3).blk t).view.emb j
    ∧ ((cfg0.win 6).blk t).view.emb j = ((cfg0.win 3).blk t).view.emb j := by
  obtain ⟨⟨a0, a1⟩, ⟨b0, b1⟩, ⟨c0, c1⟩, ⟨d0, d1⟩, ⟨e0, e1⟩, ⟨f0, f1⟩, ⟨g0, g1⟩⟩ := r0_index t
  refine ⟨?_, ?_, ?_, ?_, ?_, ?_⟩
  · funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 512 + 1 * (j 1).val = win0_3.index t (1 : Fin 2) * 512 + 1 * (j 1).val; omega
  · funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 512 + 1 * (j 1).val = win0_3.index t (1 : Fin 2) * 512 + 1 * (j 1).val; omega
  · funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 512 + 1 * (j 1).val = win0_3.index t (1 : Fin 2) * 512 + 1 * (j 1).val; omega
  · funext a; apply Fin.ext
    match a with
    | ⟨0, _⟩ => show win0_4.index t (0 : Fin 2) * 1024 + 1 * (j 0).val = win0_3.index t (0 : Fin 2) * 1024 + 1 * (j 0).val; omega
    | ⟨1, _⟩ => show win0_4.index t (1 : Fin 2) * 512 + 1 * (j 1).val = win0_3.index t (1 : Fin 2) * 512 + 1 * (j 1).val; omega
  · funext a; apply Fin.ext
    match a with
    | ⟨0, _⟩ => show win0_5.index t (0 : Fin 2) * 1024 + 1 * (j 0).val = win0_3.index t (0 : Fin 2) * 1024 + 1 * (j 0).val; omega
    | ⟨1, _⟩ => show win0_5.index t (1 : Fin 2) * 512 + 1 * (j 1).val = win0_3.index t (1 : Fin 2) * 512 + 1 * (j 1).val; omega
  · funext a; apply Fin.ext
    match a with
    | ⟨0, _⟩ => show win0_6.index t (0 : Fin 2) * 1024 + 1 * (j 0).val = win0_3.index t (0 : Fin 2) * 1024 + 1 * (j 0).val; omega
    | ⟨1, _⟩ => show win0_6.index t (1 : Fin 2) * 512 + 1 * (j 1).val = win0_3.index t (1 : Fin 2) * 512 + 1 * (j 1).val; omega

/-- What point t writes back to the first trace's array is block t of the first trace of the arrays the region finds:
    decayS · prev_eps0 + x, element by element. -/
theorem r0_flushed_eps0 (c : Dev nD) (t : Fin cfg0.N) :
    (dat0 (F := Ideal) V c).flushed 3 t
      = ((cfg0.win 3).blk t).view.read (Elt Ideal) (Cert.Spec.eps0 (V c main_arg0) (V c main_arg3)) := by
  show (cfg0.win 3).cut (grid0.coords t) ((dat0 V c).after 3 t) = _
  rw [after0_3]
  unfold out0_3
  rw [View.canon_unit_zero r0_offset_zero]
  simp only [View.ld_unit_zero (S := S1024x512) r0_offset_zero]
  funext j
  obtain ⟨h0, h1, h2, h4, h5, h6⟩ := r0_emb_eq t j
  show Cert.Spec.decayS * V c main_arg3 (((cfg0.win 1).blk t).view.emb j) + V c main_arg0 (((cfg0.win 0).blk t).view.emb j)
    = Cert.Spec.decayS * V c main_arg3 (((cfg0.win 3).blk t).view.emb j) + V c main_arg0 (((cfg0.win 3).blk t).view.emb j)
  rw [h0, h1]

/-- What point t writes back to the second trace's array is block t of the second trace:
    decayM · prev_eps1 + (decayS · prev_eps0 + x), element by element. -/
theorem r0_flushed_eps1 (c : Dev nD) (t : Fin cfg0.N) :
    (dat0 (F := Ideal) V c).flushed 4 t
      = ((cfg0.win 4).blk t).view.read (Elt Ideal) (Cert.Spec.eps1 (V c main_arg0) (V c main_arg3) (V c main_arg4)) := by
  show (cfg0.win 4).cut (grid0.coords t) ((dat0 V c).after 4 t) = _
  rw [after0_4]
  unfold out0_4
  rw [View.canon_unit_zero r0_offset_zero]
  simp only [View.ld_unit_zero (S := S1024x512) r0_offset_zero]
  funext j
  obtain ⟨h0, h1, h2, h4, h5, h6⟩ := r0_emb_eq t j
  show Cert.Spec.decayM * V c main_arg4 (((cfg0.win 2).blk t).view.emb j) + (Cert.Spec.decayS * V c main_arg3 (((cfg0.win 1).blk t).view.emb j) + V c main_arg0 (((cfg0.win 0).blk t).view.emb j))
    = Cert.Spec.decayM * V c main_arg4 (((cfg0.win 4).blk t).view.emb j) + (Cert.Spec.decayS * V c main_arg3 (((cfg0.win 4).blk t).view.emb j) + V c main_arg0 (((cfg0.win 4).blk t).view.emb j))
  rw [h0, h1, h2, h4]

/-- What point t writes back to the narrowed copy of the input is block t of the input: narrowing is the identity on
    the extended reals. -/
theorem r0_flushed_xb (c : Dev nD) (t : Fin cfg0.N) :
    (dat0 (F := Ideal) V c).flushed 5 t
      = ((cfg0.win 5).blk t).view.read (Elt Ideal) (V c main_arg0 : Cert.Spec.Arr) := by
  show (cfg0.win 5).cut (grid0.coords t) ((dat0 V c).after 5 t) = _
  rw [after0_5]
  unfold out0_5
  rw [View.canon_unit_zero r0_offset_zero]
  simp only [View.ld_unit_zero (S := S1024x512) r0_offset_zero]
  funext j
  obtain ⟨h0, h1, h2, h4, h5, h6⟩ := r0_emb_eq t j
  show V c main_arg0 (((cfg0.win 0).blk t).view.emb j) = V c main_arg0 (((cfg0.win 5).blk t).view.emb j)
  rw [h0, h5]

/-- What point t writes back to the narrowed copy of the second trace is block t of the second trace. -/
theorem r0_flushed_e1b (c : Dev nD) (t : Fin cfg0.N) :
    (dat0 (F := Ideal) V c).flushed 6 t
      = ((cfg0.win 6).blk t).view.read (Elt Ideal) (Cert.Spec.eps1 (V c main_arg0) (V c main_arg3) (V c main_arg4)) := by
  show (cfg0.win 6).cut (grid0.coords t) ((dat0 V c).after 6 t) = _
  rw [after0_6]
  unfold out0_6
  rw [View.canon_unit_zero r0_offset_zero]
  simp only [View.ld_unit_zero (S := S1024x512) r0_offset_zero]
  funext j
  obtain ⟨h0, h1, h2, h4, h5, h6⟩ := r0_emb_eq t j
  show Cert.Spec.decayM * V c main_arg4 (((cfg0.win 2).blk t).view.emb j) + (Cert.Spec.decayS * V c main_arg3 (((cfg0.win 1).blk t).view.emb j) + V c main_arg0 (((cfg0.win 0).blk t).view.emb j))
    = Cert.Spec.decayM * V c main_arg4 (((cfg0.win 6).blk t).view.emb j) + (Cert.Spec.decayS * V c main_arg3 (((cfg0.win 6).blk t).view.emb j) + V c main_arg0 (((cfg0.win 6).blk t).view.emb j))
  rw [h0, h1, h2, h6]

/-- An index of the array is in point t's block of window 3 iff each coordinate is in the block's range on its axis. -/
theorem r0_mem_blk3 (t : Fin cfg0.N) (i : S4096x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_0).slice (win0_3.rect t)).set ↔ _
  rw [View.set_slice_whole, Rect.mem_set_unit]
  exact Iff.rfl

/-- Every index of window 3's array is in the block of the point whose block index is (row / 1024, column / 512). -/
theorem r0_cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 32 := N_0
  refine ⟨⟨(i 0).val / 1024 * 8 + (i 1).val / 512, by rw [hN]; omega⟩, flush0_3 _, ?_⟩
  rw [r0_mem_blk3]
  obtain ⟨-, -, -, ⟨d30, d31⟩, ⟨d40, d41⟩, ⟨d50, d51⟩, ⟨d60, d61⟩⟩ := r0_index ⟨(i 0).val / 1024 * 8 + (i 1).val / 512, by rw [hN]; omega⟩
  intro a
  match a with
  | ⟨0, _⟩ =>
    show win0_3.index _ (0 : Fin 2) * 1024 ≤ (i 0).val ∧ (i 0).val < win0_3.index _ (0 : Fin 2) * 1024 + 1024
    rw [d30]; show ((i 0).val / 1024 * 8 + (i 1).val / 512) / 8 * 1024 ≤ (i 0).val ∧ (i 0).val < ((i 0).val / 1024 * 8 + (i 1).val / 512) / 8 * 1024 + 1024
    omega
  | ⟨1, _⟩ =>
    show win0_3.index _ (1 : Fin 2) * 512 ≤ (i 1).val ∧ (i 1).val < win0_3.index _ (1 : Fin 2) * 512 + 512
    rw [d31]; show ((i 0).val / 1024 * 8 + (i 1).val / 512) % 8 * 512 ≤ (i 1).val ∧ (i 1).val < ((i 0).val / 1024 * 8 + (i 1).val / 512) % 8 * 512 + 512
    omega

/-- An index of the array is in point t's block of window 4 iff each coordinate is in the block's range on its axis. -/
theorem r0_mem_blk4 (t : Fin cfg0.N) (i : S4096x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0_1).slice (win0_4.rect t)).set ↔ _
  rw [View.set_slice_whole, Rect.mem_set_unit]
  exact Iff.rfl

/-- Every index of window 4's array is in the block of the point whose block index is (row / 1024, column / 512). -/
theorem r0_cover4 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 32 := N_0
  refine ⟨⟨(i 0).val / 1024 * 8 + (i 1).val / 512, by rw [hN]; omega⟩, flush0_4 _, ?_⟩
  rw [r0_mem_blk4]
  obtain ⟨-, -, -, ⟨d30, d31⟩, ⟨d40, d41⟩, ⟨d50, d51⟩, ⟨d60, d61⟩⟩ := r0_index ⟨(i 0).val / 1024 * 8 + (i 1).val / 512, by rw [hN]; omega⟩
  intro a
  match a with
  | ⟨0, _⟩ =>
    show win0_4.index _ (0 : Fin 2) * 1024 ≤ (i 0).val ∧ (i 0).val < win0_4.index _ (0 : Fin 2) * 1024 + 1024
    rw [d40]; show ((i 0).val / 1024 * 8 + (i 1).val / 512) / 8 * 1024 ≤ (i 0).val ∧ (i 0).val < ((i 0).val / 1024 * 8 + (i 1).val / 512) / 8 * 1024 + 1024
    omega
  | ⟨1, _⟩ =>
    show win0_4.index _ (1 : Fin 2) * 512 ≤ (i 1).val ∧ (i 1).val < win0_4.index _ (1 : Fin 2) * 512 + 512
    rw [d41]; show ((i 0).val / 1024 * 8 + (i 1).val / 512) % 8 * 512 ≤ (i 1).val ∧ (i 1).val < ((i 0).val / 1024 * 8 + (i 1).val / 512) % 8 * 512 + 512
    omega

/-- An index of the array is in point t's block of window 5 iff each coordinate is in the block's range on its axis. -/
theorem r0_mem_blk5 (t : Fin cfg0.N) (i : S4096x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v0_2).slice (win0_5.rect t)).set ↔ _
  rw [View.set_slice_whole, Rect.mem_set_unit]
  exact Iff.rfl

/-- Every index of window 5's array is in the block of the point whose block index is (row / 1024, column / 512). -/
theorem r0_cover5 (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 32 := N_0
  refine ⟨⟨(i 0).val / 1024 * 8 + (i 1).val / 512, by rw [hN]; omega⟩, flush0_5 _, ?_⟩
  rw [r0_mem_blk5]
  obtain ⟨-, -, -, ⟨d30, d31⟩, ⟨d40, d41⟩, ⟨d50, d51⟩, ⟨d60, d61⟩⟩ := r0_index ⟨(i 0).val / 1024 * 8 + (i 1).val / 512, by rw [hN]; omega⟩
  intro a
  match a with
  | ⟨0, _⟩ =>
    show win0_5.index _ (0 : Fin 2) * 1024 ≤ (i 0).val ∧ (i 0).val < win0_5.index _ (0 : Fin 2) * 1024 + 1024
    rw [d50]; show ((i 0).val / 1024 * 8 + (i 1).val / 512) / 8 * 1024 ≤ (i 0).val ∧ (i 0).val < ((i 0).val / 1024 * 8 + (i 1).val / 512) / 8 * 1024 + 1024
    omega
  | ⟨1, _⟩ =>
    show win0_5.index _ (1 : Fin 2) * 512 ≤ (i 1).val ∧ (i 1).val < win0_5.index _ (1 : Fin 2) * 512 + 512
    rw [d51]; show ((i 0).val / 1024 * 8 + (i 1).val / 512) % 8 * 512 ≤ (i 1).val ∧ (i 1).val < ((i 0).val / 1024 * 8 + (i 1).val / 512) % 8 * 512 + 512
    omega

/-- An index of the array is in point t's block of window 6 iff each coordinate is in the block's range on its axis. -/
theorem r0_mem_blk6 (t : Fin cfg0.N) (i : S4096x4096.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v0_3).slice (win0_6.rect t)).set ↔ _
  rw [View.set_slice_whole, Rect.mem_set_unit]
  exact Iff.rfl

/-- Every index of window 6's array is in the block of the point whose block index is (row / 1024, column / 512). -/
theorem r0_cover6 (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 32 := N_0
  refine ⟨⟨(i 0).val / 1024 * 8 + (i 1).val / 512, by rw [hN]; omega⟩, flush0_6 _, ?_⟩
  rw [r0_mem_blk6]
  obtain ⟨-, -, -, ⟨d30, d31⟩, ⟨d40, d41⟩, ⟨d50, d51⟩, ⟨d60, d61⟩⟩ := r0_index ⟨(i 0).val / 1024 * 8 + (i 1).val / 512, by rw [hN]; omega⟩
  intro a
  match a with
  | ⟨0, _⟩ =>
    show win0_6.index _ (0 : Fin 2) * 1024 ≤ (i 0).val ∧ (i 0).val < win0_6.index _ (0 : Fin 2) * 1024 + 1024
    rw [d60]; show ((i 0).val / 1024 * 8 + (i 1).val / 512) / 8 * 1024 ≤ (i 0).val ∧ (i 0).val < ((i 0).val / 1024 * 8 + (i 1).val / 512) / 8 * 1024 + 1024
    omega
  | ⟨1, _⟩ =>
    show win0_6.index _ (1 : Fin 2) * 512 ≤ (i 1).val ∧ (i 1).val < win0_6.index _ (1 : Fin 2) * 512 + 512
    rw [d61]; show ((i 0).val / 1024 * 8 + (i 1).val / 512) % 8 * 512 ≤ (i 1).val ∧ (i 1).val < ((i 0).val / 1024 * 8 + (i 1).val / 512) % 8 * 512 + 512
    omega

/-- The first trace's array after the region: eps0 of the input and the previous first trace. -/
theorem r0_eps0 (c : Dev nD) :
    (dat0 (F := Ideal) V c).arrAt 3 cfg0.N = Cert.Spec.eps0 (V c main_arg0) (V c main_arg3) :=
  (dat0 (F := Ideal) V c).arrAt_eq_of_cover 3 (Cert.Spec.eps0 (V c main_arg0) (V c main_arg3))
    (fun t _ => r0_flushed_eps0 V c t) r0_cover3

/-- The second trace's array after the region: eps1 of the input and the two previous traces. -/
theorem r0_eps1 (c : Dev nD) :
    (dat0 (F := Ideal) V c).arrAt 4 cfg0.N = Cert.Spec.eps1 (V c main_arg0) (V c main_arg3) (V c main_arg4) :=
  (dat0 (F := Ideal) V c).arrAt_eq_of_cover 4 (Cert.Spec.eps1 (V c main_arg0) (V c main_arg3) (V c main_arg4))
    (fun t _ => r0_flushed_eps1 V c t) r0_cover4

/-- The narrowed copy of the input after the region: the input itself. -/
theorem r0_xb (c : Dev nD) :
    (dat0 (F := Ideal) V c).arrAt 5 cfg0.N = (V c main_arg0 : Cert.Spec.Arr) :=
  (dat0 (F := Ideal) V c).arrAt_eq_of_cover 5 (V c main_arg0 : Cert.Spec.Arr)
    (fun t _ => r0_flushed_xb V c t) r0_cover5

/-- The narrowed copy of the second trace after the region: the second trace. -/
theorem r0_e1b (c : Dev nD) :
    (dat0 (F := Ideal) V c).arrAt 6 cfg0.N = Cert.Spec.eps1 (V c main_arg0) (V c main_arg3) (V c main_arg4) :=
  (dat0 (F := Ideal) V c).arrAt_eq_of_cover 6 (Cert.Spec.eps1 (V c main_arg0) (V c main_arg3) (V c main_arg4))
    (fun t _ => r0_flushed_e1b V c t) r0_cover6

end Cert.KernelIdeal.RegionVals

end
-- ==== Proof.Region1Pieces.lean ====
/-
  The product kernel (region 1), one grid point at a time: what the body leaves in each of its two accumulator
  blocks, as a pure function of the point's input blocks and of what the accumulators held before the point.
-/
import proofs.«117062_j68977174773809_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

theorem hz : (![0, 0] : Fin 2 → Nat) = fun _ => 0 := funext fun a => by fin_cases a <;> rfl

/-! What one grid point of the product kernel leaves in its two accumulator blocks, case by case. At the first block
    of the contracted axis (k = 0) both accumulators are cleared and then receive the point's partial products; at a
    middle block they receive the partial products on top of what the point before left; at the last block (k = 3) the
    first accumulator is, after its partial product, combined with the decayed previous current. -/

theorem out_B_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 x1 x2 : Vec F S1024x1024 .bf16) (x3 : Vec F S1024x1024 .f32) (xo4 xo5 : Vec F S1024x1024 .f32) :
    out1_B_4 c i arg3 harg3 arg4 harg4 arg5 harg5 arg6 harg6 arg7 harg7 arg8 harg8 hc0 hc1 x0 x1 x2 x3 xo4 xo5 = k1_pay4 x0 x2 xo4 := by
  unfold out1_B_4
  rw [View.read_writes_eq_canon _ _ _ (cover1_B_4 c i arg3 harg3 arg4 harg4 arg5 harg5 arg6 harg6 arg7 harg7 arg8 harg8 hc0 hc1 x0 x1 x2 x3 xo4 xo5)]
  unfold kernelRun1_B
  dsimp only
  rw [View.canon_unit_zero hz]
  simp only [View.readAt_eq_ld, harg3.read_unread, harg5.read_unread, harg7.read_unread, View.ld_unit_zero (S := S1024x1024) hz]

theorem out_B_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 x1 x2 : Vec F S1024x1024 .bf16) (x3 : Vec F S1024x1024 .f32) (xo4 xo5 : Vec F S1024x1024 .f32) :
    out1_B_5 c i arg3 harg3 arg4 harg4 arg5 harg5 arg6 harg6 arg7 harg7 arg8 harg8 hc0 hc1 x0 x1 x2 x3 xo4 xo5 = k1_pay5 x1 x2 xo5 := by
  unfold out1_B_5
  rw [View.read_writes_eq_canon _ _ _ (cover1_B_5 c i arg3 harg3 arg4 harg4 arg5 harg5 arg6 harg6 arg7 harg7 arg8 harg8 hc0 hc1 x0 x1 x2 x3 xo4 xo5)]
  unfold kernelRun1_B
  dsimp only
  rw [View.canon_unit_zero hz]
  simp only [View.readAt_eq_ld, harg4.read_unread, harg5.read_unread, harg8.read_unread, View.ld_unit_zero (S := S1024x1024) hz]

theorem out_A_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 x1 x2 : Vec F S1024x1024 .bf16) (x3 : Vec F S1024x1024 .f32) :
    out1_A_4 c i arg3 harg3 arg4 harg4 arg5 harg5 arg6 harg6 arg7 harg7 arg8 harg8 hc0 hc1 x0 x1 x2 x3 = k1_pay4 x0 x2 k1_pay1 := by
  unfold out1_A_4
  rw [View.read_writes_eq_canon _ _ _ (cover1_A_4 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hz, View.readCov_unit_zero (S := S1024x1024) _ hz]
  simp only [View.readAt_eq_ld, harg3.read_unread, harg5.read_unread, View.ld_unit_zero (S := S1024x1024) hz]

theorem out_A_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 x1 x2 : Vec F S1024x1024 .bf16) (x3 : Vec F S1024x1024 .f32) :
    out1_A_5 c i arg3 harg3 arg4 harg4 arg5 harg5 arg6 harg6 arg7 harg7 arg8 harg8 hc0 hc1 x0 x1 x2 x3 = k1_pay5 x1 x2 k1_pay2 := by
  unfold out1_A_5
  rw [View.read_writes_eq_canon _ _ _ (cover1_A_5 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hz, View.readCov_unit_zero (S := S1024x1024) _ hz]
  simp only [View.readAt_eq_ld, harg4.read_unread, harg5.read_unread, View.ld_unit_zero (S := S1024x1024) hz]

theorem out_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 x1 x2 : Vec F S1024x1024 .bf16) (x3 : Vec F S1024x1024 .f32) (xo4 xo5 : Vec F S1024x1024 .f32) :
    out1_C_4 c i arg3 harg3 arg4 harg4 arg5 harg5 arg6 harg6 arg7 harg7 arg8 harg8 hc0 hc1 x0 x1 x2 x3 xo4 xo5 = k1_pay6 x3 (k1_pay4 x0 x2 xo4) := by
  unfold out1_C_4
  rw [View.read_writes_eq_canon _ _ _ (cover1_C_4 c i arg3 harg3 arg4 harg4 arg5 harg5 arg6 harg6 arg7 harg7 arg8 harg8 hc0 hc1 x0 x1 x2 x3 xo4 xo5)]
  unfold kernelRun1_C
  dsimp only
  sl_unfold_words
  rw [View.canon_cons_unit_zero (S := S1024x1024) hz, View.readCov_unit_zero (S := S1024x1024) _ hz]
  simp only [View.readAt_eq_ld, harg3.read_unread, harg5.read_unread, harg6.read_unread, harg7.read_unread, View.ld_unit_zero (S := S1024x1024) hz]

theorem out_C_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 x1 x2 : Vec F S1024x1024 .bf16) (x3 : Vec F S1024x1024 .f32) (xo4 xo5 : Vec F S1024x1024 .f32) :
    out1_C_5 c i arg3 harg3 arg4 harg4 arg5 harg5 arg6 harg6 arg7 harg7 arg8 harg8 hc0 hc1 x0 x1 x2 x3 xo4 xo5 = k1_pay5 x1 x2 xo5 := by
  unfold out1_C_5
  rw [View.read_writes_eq_canon _ _ _ (cover1_C_5 c i arg3 harg3 arg4 harg4 arg5 harg5 arg6 harg6 arg7 harg7 arg8 harg8 hc0 hc1 x0 x1 x2 x3 xo4 xo5)]
  unfold kernelRun1_C
  dsimp only
  rw [View.canon_unit_zero hz]
  simp only [View.readAt_eq_ld, harg4.read_unread, harg5.read_unread, harg8.read_unread, View.ld_unit_zero (S := S1024x1024) hz]

end Cert.KernelIdeal.Region1
end
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.Region1.lean ====
/-
  The product kernel (region 1) as whole arrays. Its grid is 4 × 4 × 4: point (i, j, k) holds the 1024 × 1024 blocks
  (i, k) of the two left factors, (j, k) of the narrowed W and (i, j) of the previous current, and accumulates into
  the blocks (i, j) of its two outputs, which stay in place while k runs and are written back after k = 3.

  After the point with a given k, an accumulator entry (r, s) of block (i, j) holds the partial sum, over the first
  1024 · (k + 1) values of the contracted coordinate, of the products u(1024 i + r, n) · W(1024 j + s, n); after k = 3
  the first output's entry is moreover the decayed previous current plus that (now complete) sum. Induction on the
  point. The written-back blocks tile the arrays, so the arrays end as the specification's products.
-/
import proofs.«117062_j68977174773809_2_alg».proof.Proof.Region1Pieces
import proofs.«117062_j68977174773809_2_alg».proof.Proof.Spec
import proofs.«117062_j68977174773809_2_alg».proof.Proof.LibMatmulRows
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## The payloads at an index -/

theorem pay1_apply (y : S1024x1024.Idx) : (k1_pay1 (F := Ideal)) y = 0 := by
  show Ideal.ofBits .f32 0x00000000#32 = 0
  exact Ideal.ofBits_zero_f32

theorem pay2_apply (y : S1024x1024.Idx) : (k1_pay2 (F := Ideal)) y = 0 := by
  show Ideal.ofBits .f32 0x00000000#32 = 0
  exact Ideal.ofBits_zero_f32

/-- The accumulation step of the first product: what was there plus the point's partial product. -/
theorem pay4_apply (x0 x2 : FVec Ideal S1024x1024 .bf16) (acc : FVec Ideal S1024x1024 .f32) (r s : Fin 1024) :
    k1_pay4 x0 x2 acc (ix2 r s) = acc (ix2 r s) + ∑ cc : Fin 1024, x0 (ix2 r cc) * x2 (ix2 s cc) := by
  unfold k1_pay4 k1_pay3
  simp only [shapeCast_self]
  refine (addf_apply _ _ _).trans ?_
  congr 1
  exact Cert.LibMatmulRows.matmul_rows_apply _ none x0 x2 r s

/-- The accumulation step of the second product. -/
theorem pay5_apply (x1 x2 : FVec Ideal S1024x1024 .bf16) (acc : FVec Ideal S1024x1024 .f32) (r s : Fin 1024) :
    k1_pay5 x1 x2 acc (ix2 r s) = acc (ix2 r s) + ∑ cc : Fin 1024, x1 (ix2 r cc) * x2 (ix2 s cc) := by
  unfold k1_pay5 k1_pay3
  simp only [shapeCast_self]
  refine (addf_apply _ _ _).trans ?_
  congr 1
  exact Cert.LibMatmulRows.matmul_rows_apply _ none x1 x2 r s

/-- The closing step of the first output: the decayed previous current plus the accumulated product. -/
theorem pay6_apply (p a : FVec Ideal S1024x1024 .f32) (y : S1024x1024.Idx) :
    k1_pay6 (F := Ideal) p a y = Cert.Spec.decayS * p y + a y := by
  unfold k1_pay6
  simp only [shapeCast_self]
  rfl

/-! ## The grid's index maps, and the blocks read at an index -/

theorem idx1 : ∀ t : Fin cfg1.N,
    win1_0.index t (0 : Fin 2) = t.val / 16 ∧ win1_0.index t (1 : Fin 2) = t.val % 4
    ∧ win1_1.index t (0 : Fin 2) = t.val / 16 ∧ win1_1.index t (1 : Fin 2) = t.val % 4
    ∧ win1_2.index t (0 : Fin 2) = t.val / 4 % 4 ∧ win1_2.index t (1 : Fin 2) = t.val % 4
    ∧ win1_3.index t (0 : Fin 2) = t.val / 16 ∧ win1_3.index t (1 : Fin 2) = t.val / 4 % 4
    ∧ win1_4.index t (0 : Fin 2) = t.val / 16 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

theorem lt64 (t : Fin cfg1.N) : t.val < 64 := lt_of_lt_of_eq t.isLt (show cfg1.N = 64 from N_1)

/-- Offset `r` of the block numbered `a` (mod 4) along an axis of extent 4096. -/
def at4 (a : ℕ) (r : Fin 1024) : Fin 4096 :=
  ⟨1024 * (a % 4) + r.val, by have := r.isLt; have := Nat.mod_lt a (show 0 < 4 by decide); omega⟩

variable (V : (c : Dev nD) → (b : Ref sig .tc) → Buf (Elt Ideal) ((c : Thread nD τ).loc b))

theorem blk0_apply (c : Dev nD) (t : Fin cfg1.N) (r cc : Fin 1024) :
    (iblk1 V c 0 t : FVec Ideal S1024x1024 .bf16) (ix2 r cc) = (V c main_v0_2 : Cert.Spec.Arr) (ix2 (at4 (t.val / 16) r) (at4 (t.val % 4) cc)) := by
  obtain ⟨e0, e1, -⟩ := idx1 t
  have h64 := lt64 t
  show V c main_v0_2 (((cfg1.win 0).blk t).view.emb (ix2 r cc)) = _
  congr 1
  funext a; apply Fin.ext
  match a with
  | ⟨0, _⟩ => show win1_0.index t (0 : Fin 2) * 1024 + 1 * r.val = 1024 * (t.val / 16 % 4) + r.val; rw [e0]; omega
  | ⟨1, _⟩ => show win1_0.index t (1 : Fin 2) * 1024 + 1 * cc.val = 1024 * (t.val % 4 % 4) + cc.val; rw [e1]; omega

theorem blk1_apply (c : Dev nD) (t : Fin cfg1.N) (r cc : Fin 1024) :
    (iblk1 V c 1 t : FVec Ideal S1024x1024 .bf16) (ix2 r cc) = (V c main_v0_3 : Cert.Spec.Arr) (ix2 (at4 (t.val / 16) r) (at4 (t.val % 4) cc)) := by
  obtain ⟨-, -, e0, e1, -⟩ := idx1 t
  have h64 := lt64 t
  show V c main_v0_3 (((cfg1.win 1).blk t).view.emb (ix2 r cc)) = _
  congr 1
  funext a; apply Fin.ext
  match a with
  | ⟨0, _⟩ => show win1_1.index t (0 : Fin 2) * 1024 + 1 * r.val = 1024 * (t.val / 16 % 4) + r.val; rw [e0]; omega
  | ⟨1, _⟩ => show win1_1.index t (1 : Fin 2) * 1024 + 1 * cc.val = 1024 * (t.val % 4 % 4) + cc.val; rw [e1]; omega

theorem blk2_apply (c : Dev nD) (t : Fin cfg1.N) (s cc : Fin 1024) :
    (iblk1 V c 2 t : FVec Ideal S1024x1024 .bf16) (ix2 s cc) = (V c main_v1 : Cert.Spec.Arr) (ix2 (at4 (t.val / 4) s) (at4 (t.val % 4) cc)) := by
  obtain ⟨-, -, -, -, e0, e1, -⟩ := idx1 t
  have h64 := lt64 t
  show V c main_v1 (((cfg1.win 2).blk t).view.emb (ix2 s cc)) = _
  congr 1
  funext a; apply Fin.ext
  match a with
  | ⟨0, _⟩ => show win1_2.index t (0 : Fin 2) * 1024 + 1 * s.val = 1024 * (t.val / 4 % 4) + s.val; rw [e0]; omega
  | ⟨1, _⟩ => show win1_2.index t (1 : Fin 2) * 1024 + 1 * cc.val = 1024 * (t.val % 4 % 4) + cc.val; rw [e1]; omega

theorem blk3_apply (c : Dev nD) (t : Fin cfg1.N) (r s : Fin 1024) :
    (iblk1 V c 3 t : FVec Ideal S1024x1024 .f32) (ix2 r s) = (V c main_arg1 : Cert.Spec.Arr) (ix2 (at4 (t.val / 16) r) (at4 (t.val / 4) s)) := by
  obtain ⟨-, -, -, -, -, -, e0, e1, -⟩ := idx1 t
  have h64 := lt64 t
  show V c main_arg1 (((cfg1.win 3).blk t).view.emb (ix2 r s)) = _
  congr 1
  funext a; apply Fin.ext
  match a with
  | ⟨0, _⟩ => show win1_3.index t (0 : Fin 2) * 1024 + 1 * r.val = 1024 * (t.val / 16 % 4) + r.val; rw [e0]; omega
  | ⟨1, _⟩ => show win1_3.index t (1 : Fin 2) * 1024 + 1 * s.val = 1024 * (t.val / 4 % 4) + s.val; rw [e1]; omega

/-! ## Partial sums along the contracted axis -/

/-- The n-th product of row p of u with row q of w (zero past the axis' end). -/
def term (u w : Cert.Spec.Arr) (p q : Fin 4096) (n : ℕ) : EReal :=
  if h : n < 4096 then u (ix2 p ⟨n, h⟩) * w (ix2 q ⟨n, h⟩) else 0

/-- The sum of the first N products. -/
def psum (u w : Cert.Spec.Arr) (p q : Fin 4096) (N : ℕ) : EReal := ∑ x ∈ Finset.range N, term u w p q x

theorem psum_zero (u w : Cert.Spec.Arr) (p q : Fin 4096) : psum u w p q 0 = 0 := by
  unfold psum; simp

/-- One more block of 1024 products. -/
theorem psum_step (u w : Cert.Spec.Arr) (p q : Fin 4096) (k : ℕ) (hk : k < 4) :
    psum u w p q (1024 * k) + ∑ cc : Fin 1024, u (ix2 p (at4 k cc)) * w (ix2 q (at4 k cc)) = psum u w p q (1024 * (k + 1)) := by
  unfold psum
  rw [show 1024 * (k + 1) = 1024 * k + 1024 by ring, Finset.sum_range_add]
  congr 1
  rw [Finset.sum_range]
  refine Finset.sum_congr rfl fun cc _ => ?_
  have hcc := cc.isLt
  have hlt : 1024 * k + cc.val < 4096 := by omega
  unfold term
  rw [dif_pos hlt]
  have e : at4 k cc = ⟨1024 * k + cc.val, hlt⟩ := Fin.ext (by show 1024 * (k % 4) + cc.val = _; rw [Nat.mod_eq_of_lt hk])
  rw [e]

/-- All 4096 products: the whole sum. -/
theorem psum_full (u w : Cert.Spec.Arr) (p q : Fin 4096) :
    psum u w p q 4096 = ∑ k : Fin 4096, u (ix2 p k) * w (ix2 q k) := by
  unfold psum
  rw [Finset.sum_range]
  refine Finset.sum_congr rfl fun k _ => ?_
  unfold term
  rw [dif_pos k.isLt]

/-! ## The accumulators after each point -/

/-- The first accumulator's partial sum after point n, at entry (r, s) of its block. -/
def acc4 (c : Dev nD) (n : ℕ) (r s : Fin 1024) : EReal :=
  psum (V c main_v0_2) (V c main_v1) (at4 (n / 16) r) (at4 (n / 4) s) (1024 * (n % 4 + 1))
/-- The second accumulator's. -/
def acc5 (c : Dev nD) (n : ℕ) (r s : Fin 1024) : EReal :=
  psum (V c main_v0_3) (V c main_v1) (at4 (n / 16) r) (at4 (n / 4) s) (1024 * (n % 4 + 1))

/-- What the two accumulators hold after point n. -/
def Inv (c : Dev nD) (n : ℕ) (h : n < cfg1.N) : Prop :=
  ∀ r s : Fin 1024,
    (outsAt1 V c n h).1 (ix2 r s)
        = (if n % 4 = 3 then Cert.Spec.decayS * (V c main_arg1 : Cert.Spec.Arr) (ix2 (at4 (n / 16) r) (at4 (n / 4) s)) + acc4 V c n r s
            else acc4 V c n r s)
    ∧ (outsAt1 V c n h).2 (ix2 r s) = acc5 V c n r s

theorem step_A (c : Dev nD) (t : Fin cfg1.N) (h0 : t.val % 4 = 0) : Inv V c t.val t.isLt := by
  have h3 : ¬t.val % 4 = 3 := by omega
  intro r s
  rw [outsAt1_A V c t h0 h3]
  dsimp only
  rw [out_A_4, out_A_5, if_neg h3]
  constructor
  · rw [pay4_apply, pay1_apply, zero_add]
    simp only [blk0_apply, blk2_apply]
    unfold acc4
    rw [h0, ← psum_step _ _ _ _ 0 (by decide), Nat.mul_zero, psum_zero, zero_add]
  · rw [pay5_apply, pay2_apply, zero_add]
    simp only [blk1_apply, blk2_apply]
    unfold acc5
    rw [h0, ← psum_step _ _ _ _ 0 (by decide), Nat.mul_zero, psum_zero, zero_add]

theorem step_B (c : Dev nD) (t : Fin cfg1.N) (h0 : ¬t.val % 4 = 0) (h3 : ¬t.val % 4 = 3)
    (IH : Inv V c (t.val - 1) (Nat.lt_of_le_of_lt (Nat.sub_le _ _) t.isLt)) : Inv V c t.val t.isLt := by
  intro r s
  obtain ⟨ih4, ih5⟩ := IH r s
  have hp : ¬(t.val - 1) % 4 = 3 := by omega
  rw [if_neg hp] at ih4
  have hk : (t.val - 1) % 4 + 1 = t.val % 4 := by omega
  have hi : (t.val - 1) / 16 = t.val / 16 := by omega
  have hj : (t.val - 1) / 4 = t.val / 4 := by omega
  rw [outsAt1_B V c t h0 h3]
  dsimp only
  rw [out_B_4, out_B_5, if_neg h3]
  constructor
  · rw [pay4_apply, ih4]
    simp only [blk0_apply, blk2_apply]
    unfold acc4
    rw [hk, hi, hj]
    exact psum_step _ _ _ _ (t.val % 4) (by omega)
  · rw [pay5_apply, ih5]
    simp only [blk1_apply, blk2_apply]
    unfold acc5
    rw [hk, hi, hj]
    exact psum_step _ _ _ _ (t.val % 4) (by omega)

theorem step_C (c : Dev nD) (t : Fin cfg1.N) (h0 : ¬t.val % 4 = 0) (h3 : t.val % 4 = 3)
    (IH : Inv V c (t.val - 1) (Nat.lt_of_le_of_lt (Nat.sub_le _ _) t.isLt)) : Inv V c t.val t.isLt := by
  intro r s
  obtain ⟨ih4, ih5⟩ := IH r s
  have hp : ¬(t.val - 1) % 4 = 3 := by omega
  rw [if_neg hp] at ih4
  have hk : (t.val - 1) % 4 + 1 = t.val % 4 := by omega
  have hi : (t.val - 1) / 16 = t.val / 16 := by omega
  have hj : (t.val - 1) / 4 = t.val / 4 := by omega
  rw [outsAt1_C V c t h0 h3]
  dsimp only
  rw [out_C_4, out_C_5, if_pos h3]
  constructor
  · rw [pay6_apply, pay4_apply, ih4, blk3_apply]
    simp only [blk0_apply, blk2_apply]
    unfold acc4
    rw [hk, hi, hj]
    congr 1
    exact psum_step _ _ _ _ (t.val % 4) (by omega)
  · rw [pay5_apply, ih5]
    simp only [blk1_apply, blk2_apply]
    unfold acc5
    rw [hk, hi, hj]
    exact psum_step _ _ _ _ (t.val % 4) (by omega)

/-- After every point, by induction on the point. -/
theorem inv_all (c : Dev nD) : ∀ (n : ℕ) (h : n < cfg1.N), Inv V c n h
  | 0, h => step_A V c ⟨0, h⟩ rfl
  | n + 1, h => by
    by_cases h0 : (n + 1) % 4 = 0
    · exact step_A V c ⟨n + 1, h⟩ h0
    · by_cases h3 : (n + 1) % 4 = 3
      · exact step_C V c ⟨n + 1, h⟩ h0 h3 (inv_all c n _)
      · exact step_B V c ⟨n + 1, h⟩ h0 h3 (inv_all c n _)

/-! ## The written-back blocks, and the arrays after the region -/

theorem emb4 (t : Fin cfg1.N) (r s : Fin 1024) :
    ((cfg1.win 4).blk t).view.emb (ix2 r s) = (ix2 (at4 (t.val / 16) r) (at4 (t.val / 4) s) : Cert.Spec.SQ.Idx) := by
  obtain ⟨-, -, -, -, -, -, -, -, e0, e1, -⟩ := idx1 t
  have h64 := lt64 t
  funext a; apply Fin.ext
  match a with
  | ⟨0, _⟩ => show win1_4.index t (0 : Fin 2) * 1024 + 1 * r.val = 1024 * (t.val / 16 % 4) + r.val; rw [e0]; omega
  | ⟨1, _⟩ => show win1_4.index t (1 : Fin 2) * 1024 + 1 * s.val = 1024 * (t.val / 4 % 4) + s.val; rw [e1]; omega

theorem emb5 (t : Fin cfg1.N) (r s : Fin 1024) :
    ((cfg1.win 5).blk t).view.emb (ix2 r s) = (ix2 (at4 (t.val / 16) r) (at4 (t.val / 4) s) : Cert.Spec.SQ.Idx) := by
  obtain ⟨-, -, -, -, -, -, -, -, -, -, e0, e1⟩ := idx1 t
  have h64 := lt64 t
  funext a; apply Fin.ext
  match a with
  | ⟨0, _⟩ => show win1_5.index t (0 : Fin 2) * 1024 + 1 * r.val = 1024 * (t.val / 16 % 4) + r.val; rw [e0]; omega
  | ⟨1, _⟩ => show win1_5.index t (1 : Fin 2) * 1024 + 1 * s.val = 1024 * (t.val / 4 % 4) + s.val; rw [e1]; omega

theorem isyn_at (u pis w : Cert.Spec.Arr) (p q : Fin 4096) :
    Cert.Spec.isyn u pis w (ix2 p q) = Cert.Spec.decayS * pis (ix2 p q) + psum u w p q 4096 := by
  rw [psum_full]; rfl

theorem mulT_at (u w : Cert.Spec.Arr) (p q : Fin 4096) : Cert.Spec.mulT u w (ix2 p q) = psum u w p q 4096 := by
  rw [psum_full]; rfl

/-- What a point with k = 3 writes back of the first output is its block of the specification's current. -/
theorem flushed4_eq (c : Dev nD) (t : Fin cfg1.N) (hf : (cfg1.win 4).flush t = true) :
    (dat1 V c).flushed 4 t = ((cfg1.win 4).blk t).view.read (Elt Ideal)
      (Cert.Spec.isyn (V c main_v0_2) (V c main_arg1) (V c main_v1)) := by
  have h3 : t.val % 4 = 3 := (flush1_4 t).mp hf
  show (cfg1.win 4).cut (grid1.coords t) ((dat1 V c).after 4 t) = _
  rw [after1_4]
  funext y
  obtain ⟨r, s, rfl⟩ : ∃ (r s : Fin 1024), y = ix2 r s := ⟨y 0, y 1, eq_ix2 (n0 := 1024) (n1 := 1024) y⟩
  show (outsAt1 V c t.val t.isLt).1 (ix2 r s)
    = Cert.Spec.isyn (V c main_v0_2) (V c main_arg1) (V c main_v1) (((cfg1.win 4).blk t).view.emb (ix2 r s))
  rw [(inv_all V c t.val t.isLt r s).1, if_pos h3, emb4, isyn_at]
  unfold acc4
  rw [h3]

/-- The same for the second output. -/
theorem flushed5_eq (c : Dev nD) (t : Fin cfg1.N) (hf : (cfg1.win 5).flush t = true) :
    (dat1 V c).flushed 5 t = ((cfg1.win 5).blk t).view.read (Elt Ideal)
      (Cert.Spec.mulT (V c main_v0_3) (V c main_v1)) := by
  have h3 : t.val % 4 = 3 := (flush1_5 t).mp hf
  show (cfg1.win 5).cut (grid1.coords t) ((dat1 V c).after 5 t) = _
  rw [after1_5]
  funext y
  obtain ⟨r, s, rfl⟩ : ∃ (r s : Fin 1024), y = ix2 r s := ⟨y 0, y 1, eq_ix2 (n0 := 1024) (n1 := 1024) y⟩
  show (outsAt1 V c t.val t.isLt).2 (ix2 r s)
    = Cert.Spec.mulT (V c main_v0_3) (V c main_v1) (((cfg1.win 5).blk t).view.emb (ix2 r s))
  rw [(inv_all V c t.val t.isLt r s).2, emb5, mulT_at]
  unfold acc5
  rw [h3]

theorem mem_blk4 (t : Fin cfg1.N) (i : S4096x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v2_0).slice (win1_4.rect t)).set ↔ _
  rw [View.set_slice_whole, Rect.mem_set_unit]
  exact Iff.rfl

theorem mem_blk5 (t : Fin cfg1.N) (i : S4096x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v2_1).slice (win1_5.rect t)).set ↔ _
  rw [View.set_slice_whole, Rect.mem_set_unit]
  exact Iff.rfl

/-- Entry (p, q) lies in the block written back by the point (p / 1024, q / 1024, 3). -/
theorem cover4 (i : S4096x4096.Idx) : ∃ t : Fin cfg1.N, (cfg1.win 4).flush t = true ∧ i ∈ ((cfg1.win 4).blk t).view.set := by
  have h0 : (i 0).val < 4096 := idx2_lt0 i
  have h1 : (i 1).val < 4096 := idx2_lt1 i
  have hn : 16 * ((i 0).val / 1024) + 4 * ((i 1).val / 1024) + 3 < cfg1.N := by rw [show cfg1.N = 64 from N_1]; omega
  refine ⟨⟨16 * ((i 0).val / 1024) + 4 * ((i 1).val / 1024) + 3, hn⟩, (flush1_4 _).mpr (by dsimp only; omega), ?_⟩
  rw [mem_blk4]
  obtain ⟨-, -, -, -, -, -, -, -, e0, e1, -⟩ := idx1 ⟨16 * ((i 0).val / 1024) + 4 * ((i 1).val / 1024) + 3, hn⟩
  dsimp only at e0 e1
  intro a
  match a with
  | ⟨0, _⟩ =>
    show win1_4.index ⟨16 * ((i 0).val / 1024) + 4 * ((i 1).val / 1024) + 3, hn⟩ (0 : Fin 2) * 1024 ≤ (i 0).val ∧ (i 0).val < win1_4.index ⟨16 * ((i 0).val / 1024) + 4 * ((i 1).val / 1024) + 3, hn⟩ (0 : Fin 2) * 1024 + 1024
    rw [e0]; omega
  | ⟨1, _⟩ =>
    show win1_4.index ⟨16 * ((i 0).val / 1024) + 4 * ((i 1).val / 1024) + 3, hn⟩ (1 : Fin 2) * 1024 ≤ (i 1).val ∧ (i 1).val < win1_4.index ⟨16 * ((i 0).val / 1024) + 4 * ((i 1).val / 1024) + 3, hn⟩ (1 : Fin 2) * 1024 + 1024
    rw [e1]; omega

theorem cover5 (i : S4096x4096.Idx) : ∃ t : Fin cfg1.N, (cfg1.win 5).flush t = true ∧ i ∈ ((cfg1.win 5).blk t).view.set := by
  have h0 : (i 0).val < 4096 := idx2_lt0 i
  have h1 : (i 1).val < 4096 := idx2_lt1 i
  have hn : 16 * ((i 0).val / 1024) + 4 * ((i 1).val / 1024) + 3 < cfg1.N := by rw [show cfg1.N = 64 from N_1]; omega
  refine ⟨⟨16 * ((i 0).val / 1024) + 4 * ((i 1).val / 1024) + 3, hn⟩, (flush1_5 _).mpr (by dsimp only; omega), ?_⟩
  rw [mem_blk5]
  obtain ⟨-, -, -, -, -, -, -, -, -, -, e0, e1⟩ := idx1 ⟨16 * ((i 0).val / 1024) + 4 * ((i 1).val / 1024) + 3, hn⟩
  dsimp only at e0 e1
  intro a
  match a with
  | ⟨0, _⟩ =>
    show win1_5.index ⟨16 * ((i 0).val / 1024) + 4 * ((i 1).val / 1024) + 3, hn⟩ (0 : Fin 2) * 1024 ≤ (i 0).val ∧ (i 0).val < win1_5.index ⟨16 * ((i 0).val / 1024) + 4 * ((i 1).val / 1024) + 3, hn⟩ (0 : Fin 2) * 1024 + 1024
    rw [e0]; omega
  | ⟨1, _⟩ =>
    show win1_5.index ⟨16 * ((i 0).val / 1024) + 4 * ((i 1).val / 1024) + 3, hn⟩ (1 : Fin 2) * 1024 ≤ (i 1).val ∧ (i 1).val < win1_5.index ⟨16 * ((i 0).val / 1024) + 4 * ((i 1).val / 1024) + 3, hn⟩ (1 : Fin 2) * 1024 + 1024
    rw [e1]; omega

/-- The first output array after the region: the decayed previous current plus the whole product with the
    narrowed W, of what the region found. -/
theorem r1_isyn (c : Dev nD) : (dat1 (F := Ideal) V c).arrAt 4 cfg1.N
    = Cert.Spec.isyn (V c main_v0_2) (V c main_arg1) (V c main_v1) :=
  (dat1 V c).arrAt_eq_of_cover 4 _ (flushed4_eq V c) cover4

/-- The second output array after the region: the whole product of the narrowed second trace with the narrowed W. -/
theorem r1_pv (c : Dev nD) : (dat1 (F := Ideal) V c).arrAt 5 cfg1.N
    = Cert.Spec.mulT (V c main_v0_3) (V c main_v1) :=
  (dat1 V c).arrAt_eq_of_cover 5 _ (flushed5_eq V c) cover5

end Cert.KernelIdeal.Region1

end
-- ==== Proof.Region2.lean ====
/-
  The potential kernel (region 2) as whole arrays. Its grid is 4 × 8 with 1024 × 512 blocks (i, k), every output
  block written back at every point. Entry by entry the body computes v = b · prev_vmem + isyn and the spike
  [v > 1/2]: the comparison's bit, widened and read as an integer, is 0 or 1. The blocks tile the arrays, so the two
  output arrays end as those functions of the arrays the region finds.
-/
import proofs.«117062_j68977174773809_2_alg».proof.Proof.Gen.KernelIdeal.Frame
import proofs.«117062_j68977174773809_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.RegionVals

open Cert.KernelIdeal Cert.KernelIdeal.Gen

variable (V : (c : Dev nD) → (b : Ref sig .tc) → Buf (Elt Ideal) ((c : Thread nD τ).loc b))

/-- The zero offset of a whole-block access, as the constant function. -/
theorem r2_offset_zero : (![0, 0] : Fin 2 → Nat) = fun _ => 0 := funext fun a => by fin_cases a <;> rfl

/-- Every window of the region has the same index map: point t has block index (t / 8, t % 8). -/
theorem r2_index : ∀ t : Fin cfg2.N,
    (win2_0.index t (0 : Fin 2) = t.val / 8 ∧ win2_0.index t (1 : Fin 2) = t.val % 8)
    ∧ (win2_1.index t (0 : Fin 2) = t.val / 8 ∧ win2_1.index t (1 : Fin 2) = t.val % 8)
    ∧ (win2_2.index t (0 : Fin 2) = t.val / 8 ∧ win2_2.index t (1 : Fin 2) = t.val % 8)
    ∧ (win2_3.index t (0 : Fin 2) = t.val / 8 ∧ win2_3.index t (1 : Fin 2) = t.val % 8) :=
  (by decide +kernel : ∀ t : Fin grid2.N, _)

/-- An element of a window's block at point t sits, on each axis, at block index times block size plus its own
    coordinate. All the region's windows have the same index map, so the element j of every window's block at t sits
    at the same place of its array. -/
theorem r2_emb_eq (t : Fin cfg2.N) (j : S1024x512.Idx) :
    ((cfg2.win 0).blk t).view.emb j = ((cfg2.win 2).blk t).view.emb j
    ∧ ((cfg2.win 1).blk t).view.emb j = ((cfg2.win 2).blk t).view.emb j
    ∧ ((cfg2.win 3).blk t).view.emb j = ((cfg2.win 2).blk t).view.emb j := by
  obtain ⟨⟨a0, a1⟩, ⟨b0, b1⟩, ⟨c0, c1⟩, ⟨d0, d1⟩⟩ := r2_index t
  refine ⟨?_, ?_, ?_⟩
  · funext a; apply Fin.ext
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 512 + 1 * (j 1).val = win2_2.index t (1 : Fin 2) * 512 + 1 * (j 1).val; omega
  · funext a; apply Fin.ext
    match a with
    | ⟨0, _⟩ => show win2_1.index t (0 : Fin 2) * 1024 + 1 * (j 0).val = win2_2.index t (0 : Fin 2) * 1024 + 1 * (j 0).val; omega
    | ⟨1, _⟩ => show win2_1.index t (1 : Fin 2) * 512 + 1 * (j 1).val = win2_2.index t (1 : Fin 2) * 512 + 1 * (j 1).val; omega
  · funext a; apply Fin.ext
    match a with
    | ⟨0, _⟩ => show win2_3.index t (0 : Fin 2) * 1024 + 1 * (j 0).val = win2_2.index t (0 : Fin 2) * 1024 + 1 * (j 0).val; omega
    | ⟨1, _⟩ => show win2_3.index t (1 : Fin 2) * 512 + 1 * (j 1).val = win2_2.index t (1 : Fin 2) * 512 + 1 * (j 1).val; omega

/-- A one-bit word widened to 32 bits and read as a signed integer is the bit itself, 0 or 1. -/
theorem r2_bit_toInt (b : BitVec 1) : (b.setWidth 32).toInt = (b.toNat : Int) := by
  rcases BitVec.eq_zero_or_eq_one b with h | h <;> subst h <;> decide

/-- The membrane potential's payload at an index: decayM · prev_vmem + isyn. -/
theorem r2_pay1_apply (x0 x1 : Vec Ideal S1024x512 .f32) (j : S1024x512.Idx) :
    k2_pay1 x0 x1 j = Cert.Spec.decayM * x0 j + x1 j := by
  unfold k2_pay1
  rw [shapeCast_self]
  rfl

/-- The spike payload at an index: the comparison's bit of the potential against the threshold, as the number 0 or 1. -/
theorem r2_pay2_apply (x0 x1 : Vec Ideal S1024x512 .f32) (j : S1024x512.Idx) :
    k2_pay2 x0 x1 j = (((Ideal.cmp .ogt (Cert.Spec.decayM * x0 j + x1 j) Cert.Spec.thresh).toNat : ℝ) : EReal) := by
  have e : k2_pay2 x0 x1 j
      = ((((Ideal.cmp .ogt (k2_pay1 x0 x1 j) Cert.Spec.thresh).setWidth 32).toInt : ℝ) : EReal) := rfl
  rw [e, r2_pay1_apply, r2_bit_toInt, Int.cast_natCast]

/-- What point t writes back to the membrane potential's array is block t of decayM · prev_vmem + isyn, element by
    element. -/
theorem r2_flushed_vmem (c : Dev nD) (t : Fin cfg2.N) :
    (dat2 (F := Ideal) V c).flushed 2 t
      = ((cfg2.win 2).blk t).view.read (Elt Ideal) (fun i => Cert.Spec.decayM * V c main_arg2 i + V c main_v2_0 i : Cert.Spec.Arr) := by
  show (cfg2.win 2).cut (grid2.coords t) ((dat2 V c).after 2 t) = _
  rw [after2_2]
  unfold out2_2
  rw [View.canon_unit_zero r2_offset_zero]
  simp only [View.ld_unit_zero (S := S1024x512) r2_offset_zero]
  funext j
  obtain ⟨h0, h1, h3⟩ := r2_emb_eq t j
  refine (r2_pay1_apply (iblk2 V c 0 t) (iblk2 V c 1 t) j).trans ?_
  show Cert.Spec.decayM * V c main_arg2 (((cfg2.win 0).blk t).view.emb j) + V c main_v2_0 (((cfg2.win 1).blk t).view.emb j)
    = Cert.Spec.decayM * V c main_arg2 (((cfg2.win 2).blk t).view.emb j) + V c main_v2_0 (((cfg2.win 2).blk t).view.emb j)
  rw [h0, h1]

/-- What point t writes back to the spikes' array is block t of the spikes of that potential. -/
theorem r2_flushed_spike (c : Dev nD) (t : Fin cfg2.N) :
    (dat2 (F := Ideal) V c).flushed 3 t
      = ((cfg2.win 3).blk t).view.read (Elt Ideal) (Cert.Spec.spike (fun i => Cert.Spec.decayM * V c main_arg2 i + V c main_v2_0 i : Cert.Spec.Arr)) := by
  show (cfg2.win 3).cut (grid2.coords t) ((dat2 V c).after 3 t) = _
  rw [after2_3]
  unfold out2_3
  rw [View.canon_unit_zero r2_offset_zero]
  simp only [View.ld_unit_zero (S := S1024x512) r2_offset_zero]
  funext j
  obtain ⟨h0, h1, h3⟩ := r2_emb_eq t j
  refine (r2_pay2_apply (iblk2 V c 0 t) (iblk2 V c 1 t) j).trans ?_
  show (((Ideal.cmp .ogt (Cert.Spec.decayM * V c main_arg2 (((cfg2.win 0).blk t).view.emb j) + V c main_v2_0 (((cfg2.win 1).blk t).view.emb j)) Cert.Spec.thresh).toNat : ℝ) : EReal)
    = (((Ideal.cmp .ogt (Cert.Spec.decayM * V c main_arg2 (((cfg2.win 3).blk t).view.emb j) + V c main_v2_0 (((cfg2.win 3).blk t).view.emb j)) Cert.Spec.thresh).toNat : ℝ) : EReal)
  rw [h0, h1, h3]

/-- An index of the array is in point t's block of window 2 iff each coordinate is in the block's range on its axis. -/
theorem r2_mem_blk2 (t : Fin cfg2.N) (i : S4096x4096.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole main_v3_0).slice (win2_2.rect t)).set ↔ _
  rw [View.set_slice_whole, Rect.mem_set_unit]
  exact Iff.rfl

/-- Every index of window 2's array is in the block of the point whose block index is (row / 1024, column / 512). -/
theorem r2_cover2 (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  have hN : cfg2.N = 32 := N_2
  refine ⟨⟨(i 0).val / 1024 * 8 + (i 1).val / 512, by rw [hN]; omega⟩, flush2_2 _, ?_⟩
  rw [r2_mem_blk2]
  obtain ⟨-, -, ⟨d20, d21⟩, ⟨d30, d31⟩⟩ := r2_index ⟨(i 0).val / 1024 * 8 + (i 1).val / 512, by rw [hN]; omega⟩
  intro a
  match a with
  | ⟨0, _⟩ =>
    show win2_2.index _ (0 : Fin 2) * 1024 ≤ (i 0).val ∧ (i 0).val < win2_2.index _ (0 : Fin 2) * 1024 + 1024
    rw [d20]; show ((i 0).val / 1024 * 8 + (i 1).val / 512) / 8 * 1024 ≤ (i 0).val ∧ (i 0).val < ((i 0).val / 1024 * 8 + (i 1).val / 512) / 8 * 1024 + 1024
    omega
  | ⟨1, _⟩ =>
    show win2_2.index _ (1 : Fin 2) * 512 ≤ (i 1).val ∧ (i 1).val < win2_2.index _ (1 : Fin 2) * 512 + 512
    rw [d21]; show ((i 0).val / 1024 * 8 + (i 1).val / 512) % 8 * 512 ≤ (i 1).val ∧ (i 1).val < ((i 0).val / 1024 * 8 + (i 1).val / 512) % 8 * 512 + 512
    omega

/-- An index of the array is in point t's block of window 3 iff each coordinate is in the block's range on its axis. -/
theorem r2_mem_blk3 (t : Fin cfg2.N) (i : S4096x4096.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v3_1).slice (win2_3.rect t)).set ↔ _
  rw [View.set_slice_whole, Rect.mem_set_unit]
  exact Iff.rfl

/-- Every index of window 3's array is in the block of the point whose block index is (row / 1024, column / 512). -/
theorem r2_cover3 (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  have hN : cfg2.N = 32 := N_2
  refine ⟨⟨(i 0).val / 1024 * 8 + (i 1).val / 512, by rw [hN]; omega⟩, flush2_3 _, ?_⟩
  rw [r2_mem_blk3]
  obtain ⟨-, -, ⟨d20, d21⟩, ⟨d30, d31⟩⟩ := r2_index ⟨(i 0).val / 1024 * 8 + (i 1).val / 512, by rw [hN]; omega⟩
  intro a
  match a with
  | ⟨0, _⟩ =>
    show win2_3.index _ (0 : Fin 2) * 1024 ≤ (i 0).val ∧ (i 0).val < win2_3.index _ (0 : Fin 2) * 1024 + 1024
    rw [d30]; show ((i 0).val / 1024 * 8 + (i 1).val / 512) / 8 * 1024 ≤ (i 0).val ∧ (i 0).val < ((i 0).val / 1024 * 8 + (i 1).val / 512) / 8 * 1024 + 1024
    omega
  | ⟨1, _⟩ =>
    show win2_3.index _ (1 : Fin 2) * 512 ≤ (i 1).val ∧ (i 1).val < win2_3.index _ (1 : Fin 2) * 512 + 512
    rw [d31]; show ((i 0).val / 1024 * 8 + (i 1).val / 512) % 8 * 512 ≤ (i 1).val ∧ (i 1).val < ((i 0).val / 1024 * 8 + (i 1).val / 512) % 8 * 512 + 512
    omega

/-- The membrane potential's array after the region: decayM · prev_vmem + isyn. -/
theorem r2_vmem (c : Dev nD) :
    (dat2 (F := Ideal) V c).arrAt 2 cfg2.N = (fun i => Cert.Spec.decayM * V c main_arg2 i + V c main_v2_0 i : Cert.Spec.Arr) :=
  (dat2 (F := Ideal) V c).arrAt_eq_of_cover 2 (fun i => Cert.Spec.decayM * V c main_arg2 i + V c main_v2_0 i : Cert.Spec.Arr)
    (fun t _ => r2_flushed_vmem V c t) r2_cover2

/-- The spikes' array after the region: the spikes of that potential. -/
theorem r2_spike (c : Dev nD) :
    (dat2 (F := Ideal) V c).arrAt 3 cfg2.N = Cert.Spec.spike (fun i => Cert.Spec.decayM * V c main_arg2 i + V c main_v2_0 i : Cert.Spec.Arr) :=
  (dat2 (F := Ideal) V c).arrAt_eq_of_cover 3 (Cert.Spec.spike (fun i => Cert.Spec.decayM * V c main_arg2 i + V c main_v2_0 i : Cert.Spec.Arr))
    (fun t _ => r2_flushed_spike V c t) r2_cover3

end Cert.KernelIdeal.RegionVals

end
-- ==== Proof.RefVals.lean ====
/-
  The reference program's results as the specification's functions. Each printed composition of elementwise host
  operations, read at an index, is the specification's formula at that index; the host product against the transposed
  weights, read at (p, q), is the sum over k of u(p, k) · w(q, k).
-/
import proofs.«117062_j68977174773809_2_alg».proof.Proof.Gen.ReferenceIdeal
import proofs.«117062_j68977174773809_2_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember

noncomputable section
open Idealize.ShloMosaic Idealize.ShloMosaic.TcCoe Idealize.SL.Sem Idealize.ShloMosaic.ValueIdx

namespace Cert.ReferenceIdeal.RefVals
open Cert.ReferenceIdeal Cert.ReferenceIdeal.Gen

variable (x pis pvm pe0 pe1 w : FVec Ideal S4096x4096 .f32)

/-- A rank-0 float constant broadcast to the square shape reads, at every index, the extended real of its pattern. -/
theorem bcast_const_apply (b : BitVec 32) (i : S4096x4096.Idx) :
    broadcastInDim S4096x4096 ![] bcast_S_S4096x4096 (constant (F := Ideal) S_ .f32 b) i = Ideal.ofBits .f32 b := by
  rw [broadcastInDim_scalar_apply]; rfl

/-- The printed dot record is the plain [m, k] × [k, n] record. -/
theorem dot_eq_plain : dot_S4096x4096_S4096x4096_S4096x4096_1_0_0_1_n_n = DotDims.plain 4096 4096 4096 := rfl

theorem ref_eps0 : addf (mulf (broadcastInDim S4096x4096 ![] bcast_S_S4096x4096 (constant (F := Ideal) S_ .f32 0x3F59999A#32)) pe0) x = Cert.Spec.eps0 x pe0 := by
  funext i
  rw [addf_apply, mulf_apply, bcast_const_apply]; rfl

theorem ref_eps1 : addf (mulf (broadcastInDim S4096x4096 ![] bcast_S_S4096x4096 (constant (F := Ideal) S_ .f32 0x3F666666#32)) pe1) (addf (mulf (broadcastInDim S4096x4096 ![] bcast_S_S4096x4096 (constant (F := Ideal) S_ .f32 0x3F59999A#32)) pe0) x) = Cert.Spec.eps1 x pe0 pe1 := by
  rw [ref_eps0]
  funext i
  rw [addf_apply, mulf_apply, bcast_const_apply]; rfl

theorem ref_mulT (u : FVec Ideal S4096x4096 .f32) : Host.dotGeneral (F := Ideal) dot_S4096x4096_S4096x4096_S4096x4096_1_0_0_1_n_n none u (transpose S4096x4096 [1, 0] w transposes_S4096x4096_S4096x4096_1_0) = Cert.Spec.mulT u w := by
  funext i
  obtain ⟨p, q, rfl⟩ : ∃ (p q : Fin 4096), i = ix2 p q := ⟨i 0, i 1, eq_ix2 i⟩
  rw [dot_eq_plain, StackMember.dotGeneral_plain_apply]
  show _ = ∑ k : Fin 4096, u (ix2 p k) * w (ix2 q k)
  refine Finset.sum_congr rfl fun k _ => ?_
  rw [transpose_ix2_apply]

theorem ref_isyn : addf (mulf (broadcastInDim S4096x4096 ![] bcast_S_S4096x4096 (constant (F := Ideal) S_ .f32 0x3F59999A#32)) pis) (Host.dotGeneral (F := Ideal) dot_S4096x4096_S4096x4096_S4096x4096_1_0_0_1_n_n none x (transpose S4096x4096 [1, 0] w transposes_S4096x4096_S4096x4096_1_0)) = Cert.Spec.isyn x pis w := by
  rw [ref_mulT]
  funext i
  rw [addf_apply, mulf_apply, bcast_const_apply]; rfl

theorem ref_vmem : addf (mulf (broadcastInDim S4096x4096 ![] bcast_S_S4096x4096 (constant (F := Ideal) S_ .f32 0x3F666666#32)) pvm) (addf (mulf (broadcastInDim S4096x4096 ![] bcast_S_S4096x4096 (constant (F := Ideal) S_ .f32 0x3F59999A#32)) pis) (Host.dotGeneral (F := Ideal) dot_S4096x4096_S4096x4096_S4096x4096_1_0_0_1_n_n none x (transpose S4096x4096 [1, 0] w transposes_S4096x4096_S4096x4096_1_0))) = Cert.Spec.vmem x pis pvm w := by
  rw [ref_isyn]
  funext i
  rw [addf_apply, mulf_apply, bcast_const_apply]; rfl

theorem ref_spike (v : FVec Ideal S4096x4096 .f32) : uitofp (F := Ideal) .f32 (cmpf .ogt v (broadcastInDim S4096x4096 ![] bcast_S_S4096x4096 (constant (F := Ideal) S_ .f32 0x3F000000#32))) = Cert.Spec.spike v := by
  funext i
  show (((Ideal.cmp .ogt (v i) (broadcastInDim S4096x4096 ![] bcast_S_S4096x4096 (constant (F := Ideal) S_ .f32 0x3F000000#32) i)).toNat : ℝ) : EReal) = _
  rw [bcast_const_apply]; rfl

end Cert.ReferenceIdeal.RefVals
end
-- ==== Proof.Head.lean ====
/-
  The classifier head that both programs apply to the presynaptic drive: the logits pv · Woᵀ + bo, their sigmoid
  1 / (1 + exp(−z)), and the log-softmax along the ten classes, s − max s − log Σ exp(s − max s). It is carried as one
  function of (pv, Wo, bo); nothing here reads it at an index.
-/
import proofs.«117062_j68977174773809_2_alg».proof.Proof.RefRun
import proofs.«117062_j68977174773809_2_alg».proof.Proof.Gen.KernelIdeal.Launch
import proofs.«117062_j68977174773809_2_alg».proof.Proof.Spec
import proofs.«117062_j68977174773809_2_alg».proof.Proof.RefVals
import Idealize.ShloMosaic.Lib.StableHlo.Run

noncomputable section
open Idealize.ShloMosaic Idealize.ShloMosaic.TcCoe Idealize.SL.Sem

namespace Cert.Head
open Cert.KernelIdeal Cert.KernelIdeal.Gen

/-- The logits: pv · Woᵀ with the bias added to every row. -/
def logits (pv : FVec Ideal Cert.KernelIdeal.S4096x4096 .f32) (wo : FVec Ideal Cert.KernelIdeal.S10x4096 .f32) (bo : FVec Ideal Cert.KernelIdeal.S10 .f32) : FVec Ideal Cert.KernelIdeal.S4096x10 .f32 :=
  addf (Host.dotGeneral (F := Ideal) dot_S4096x4096_S4096x10_S4096x10_1_0_0_1_n_n none pv (transpose S4096x10 [1, 0] wo transposes_S10x4096_S4096x10_1_0)) (broadcastInDim S4096x10 ![0, 1] bcast_S1x10_S4096x10_0_1 (broadcastInDim S1x10 ![1] bcast_S10_S1x10_1 bo))

/-- The sigmoid, 1 / (1 + exp(−z)), entry by entry. -/
def sigm (z : FVec Ideal Cert.KernelIdeal.S4096x10 .f32) : FVec Ideal Cert.KernelIdeal.S4096x10 .f32 :=
  Host.divf (F := Ideal) (broadcastInDim S4096x10 ![] bcast_S_S4096x10 (constant (F := Ideal) S_ .f32 0x3F800000#32)) (addf (broadcastInDim S4096x10 ![] bcast_S_S4096x10 (constant (F := Ideal) S_ .f32 0x3F800000#32)) (Host.exp (F := Ideal) (Host.negf (F := Ideal) z)))

/-- Each row's maximum (from −∞), copied along the row. -/
def rowMax (s : FVec Ideal Cert.KernelIdeal.S4096x10 .f32) : FVec Ideal Cert.KernelIdeal.S4096x10 .f32 :=
  broadcastInDim S4096x10 ![0, 1] bcast_S4096x1_S4096x10_0_1 (broadcastInDim S4096x1 ![0] bcast_S4096_S4096x1_0 (maximumf (broadcastInDim S4096 ![] bcast_S_S4096 (constant (F := Ideal) S_ .f32 0xFF800000#32)) (Host.reduce FloatOps.maximumf s (constant (F := Ideal) S_ .f32 0xFF800000#32) reducesTo_S4096x10_S4096_d1 h_S_)))

/-- The log-softmax along each row: s − max s − log Σ exp(s − max s). -/
def logSoftmax (s : FVec Ideal Cert.KernelIdeal.S4096x10 .f32) : FVec Ideal Cert.KernelIdeal.S4096x10 .f32 :=
  subf (subf s (rowMax s)) (broadcastInDim S4096x10 ![0, 1] bcast_S4096x1_S4096x10_0_1 (Host.log (F := Ideal) (broadcastInDim S4096x1 ![0] bcast_S4096_S4096x1_0 (Host.reduceAdd (F := Ideal) (Host.exp (F := Ideal) (subf s (rowMax s))) (constant (F := Ideal) S_ .f32 0x00000000#32) reducesTo_S4096x10_S4096_d1 h_S_))))

/-- The head. -/
def headK (pv : FVec Ideal Cert.KernelIdeal.S4096x4096 .f32) (wo : FVec Ideal Cert.KernelIdeal.S10x4096 .f32) (bo : FVec Ideal Cert.KernelIdeal.S10 .f32) : FVec Ideal Cert.KernelIdeal.S4096x10 .f32 :=
  logSoftmax (sigm (logits pv wo bo))

set_option maxRecDepth 65536 in
theorem kernel_head (W : Valuation τ sig (Elt Ideal)) :
    StableHlo.after (hostOps3_1 (F := Ideal)) (StableHlo.after (hostOps3 (F := Ideal)) W) (Proc.devRef .tc main_v15)
      = headK (W (Proc.devRef .tc main_v2_1)) (W (Proc.devRef .tc main_arg6)) (W (Proc.devRef .tc main_arg7)) := by
  after_results_simp
  rfl

set_option maxRecDepth 65536 in
theorem ref_head (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v30 (F := Ideal) m c
      = headK (Cert.Spec.pv (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  unfold Cert.ReferenceIdeal.ValueP.res_main_v30
  rw [Cert.ReferenceIdeal.RefVals.ref_eps1, Cert.ReferenceIdeal.RefVals.ref_mulT]
  unfold Cert.Spec.pv
  generalize Cert.Spec.mulT _ _ = p
  generalize m ((c.tc : Thread Cert.ReferenceIdeal.nD Cert.ReferenceIdeal.τ).loc Cert.ReferenceIdeal.main_arg6) = wo
  generalize m ((c.tc : Thread Cert.ReferenceIdeal.nD Cert.ReferenceIdeal.τ).loc Cert.ReferenceIdeal.main_arg7) = bo
  rfl

end Cert.Head
end
-- ==== Proof.lean ====
/-
  The certificate's five claims.

  The kernel program is three regions and a few host operations: the two traces (region 0), the two products with
  Wᵀ accumulated block by block along the contracted axis together with the synaptic current (region 1), the
  membrane potential and the spikes (region 2), and the classifier head on the host. The reference computes the
  same six arrays by whole-array host operations. On the extended reals a change of float format is the identity
  and a sum may be regrouped, so both programs end with

    isyn = a · prev_isyn + x · Wᵀ,   vmem = b · prev_vmem + isyn,   eps0 = a · prev_eps0 + x,
    eps1 = b · prev_eps1 + eps0,     spike = [vmem > 1/2],           head(eps1 · Wᵀ, Wo, bo),

  the head being the same composition of host operations in both, carried as one function. Only associativity and
  commutativity of addition are used, so the finiteness of the inputs is never opened. The three frames are the
  programs' runs with the results dropped; the idealization rewrote nothing, so there is nothing to preserve.
-/
import proofs.«117062_j68977174773809_2_alg».proof.Defs
import proofs.«117062_j68977174773809_2_alg».proof.Proof.Gen.Kernel
import proofs.«117062_j68977174773809_2_alg».proof.Proof.Gen.Kernel.Skeleton
import proofs.«117062_j68977174773809_2_alg».proof.Proof.Gen.Kernel.Launch
import proofs.«117062_j68977174773809_2_alg».proof.Proof.Gen.Kernel.Points
import proofs.«117062_j68977174773809_2_alg».proof.Proof.Gen.Kernel.Frame
import proofs.«117062_j68977174773809_2_alg».proof.Proof.Gen.KernelIdeal
import proofs.«117062_j68977174773809_2_alg».proof.Proof.Gen.KernelIdeal.Skeleton
import proofs.«117062_j68977174773809_2_alg».proof.Proof.Gen.KernelIdeal.Launch
import proofs.«117062_j68977174773809_2_alg».proof.Proof.Gen.KernelIdeal.Points
import proofs.«117062_j68977174773809_2_alg».proof.Proof.Gen.KernelIdeal.Frame
import proofs.«117062_j68977174773809_2_alg».proof.Proof.Gen.ReferenceIdeal
import proofs.«117062_j68977174773809_2_alg».proof.Proof.Gen.Pre_finite_inputs
import proofs.«117062_j68977174773809_2_alg».proof.Proof.Spec
import proofs.«117062_j68977174773809_2_alg».proof.Proof.RunVals
import proofs.«117062_j68977174773809_2_alg».proof.Proof.Walk
import proofs.«117062_j68977174773809_2_alg».proof.Proof.Region0
import proofs.«117062_j68977174773809_2_alg».proof.Proof.Region1
import proofs.«117062_j68977174773809_2_alg».proof.Proof.Region2
import proofs.«117062_j68977174773809_2_alg».proof.Proof.RefRun
import proofs.«117062_j68977174773809_2_alg».proof.Proof.RefVals
import proofs.«117062_j68977174773809_2_alg».proof.Proof.Head
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2) (Cert.ReferenceIdeal.ValueP.run (F := Ideal) m ρ)

theorem preserves : Cert.preserves_Kernel_KernelIdeal := trivial

/-- What the three regions leave in their output arrays. -/
theorem regions : Cert.KernelIdeal.Walk.Regions :=
  ⟨Cert.KernelIdeal.RegionVals.r0_eps0, Cert.KernelIdeal.RegionVals.r0_eps1, Cert.KernelIdeal.RegionVals.r0_xb,
    Cert.KernelIdeal.RegionVals.r0_e1b, Cert.KernelIdeal.Region1.r1_isyn, Cert.KernelIdeal.Region1.r1_pv,
    Cert.KernelIdeal.RegionVals.r2_vmem, Cert.KernelIdeal.RegionVals.r2_spike⟩

/-- The kernel program's head result: the head of the second product and of the classifier's weights and bias. -/
theorem kernel_head_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v15)
      = Cert.Head.headK (Cert.Spec.pv (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  refine (Cert.Head.kernel_head (Cert.KernelIdeal.Gen.W4 m ρ c)).trans ?_
  rw [Cert.KernelIdeal.Walk.head_in_pv regions m ρ c,
    Cert.KernelIdeal.Walk.head_in_arg m ρ c Cert.KernelIdeal.main_arg6 (by decide) (by decide) (by decide) (by decide),
    Cert.KernelIdeal.Walk.head_in_arg m ρ c Cert.KernelIdeal.main_arg7 (by decide) (by decide) (by decide) (by decide)]

theorem algebraic : Cert.algebraic_KernelIdeal_ReferenceIdeal := by
  intro m ρ m' ρ' _ hagree
  refine ⟨fun c => Cert.Spec.isyn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => Cert.Spec.vmem (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)),
    fun c => Cert.Spec.eps0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.Spec.eps1 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.spike (Cert.Spec.vmem (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5))),
    fun c => Cert.Head.headK (Cert.Spec.pv (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunVals.run_results (F := Ideal) m ρ)
    obtain ⟨h0, h1, h2, h3, h4, h5, hargs⟩ := h c
    exact ⟨h0.trans (Cert.KernelIdeal.Walk.final_isyn regions m ρ c), h1.trans (Cert.KernelIdeal.Walk.final_vmem regions m ρ c),
      h2.trans (Cert.KernelIdeal.Walk.final_eps0 regions m ρ c), h3.trans (Cert.KernelIdeal.Walk.final_eps1 regions m ρ c),
      h4.trans (Cert.KernelIdeal.Walk.final_spike regions m ρ c), h5.trans (kernel_head_result m ρ c), hargs⟩
  · refine (θ_run Cert.ReferenceIdeal.defs _ _).mono (fun r h c => ?_) (Cert.ReferenceIdeal.ValueP.run (F := Ideal) m' ρ')
    obtain ⟨h0, h1, h2, h3, h4, h5, hargs⟩ := h c
    obtain ⟨a0, a1, a2, a3, a4, a5, a6, a7⟩ := hagree c
    refine ⟨h0.trans ?_, h1.trans ?_, h2.trans ?_, h3.trans ?_, h4.trans ?_, h5.trans ?_, hargs⟩
    · rw [a0, a1, a5]; exact Cert.ReferenceIdeal.RefVals.ref_isyn _ _ _
    · rw [a0, a1, a2, a5]; exact Cert.ReferenceIdeal.RefVals.ref_vmem _ _ _ _
    · rw [a0, a3]; exact Cert.ReferenceIdeal.RefVals.ref_eps0 _ _
    · rw [a0, a3, a4]; exact Cert.ReferenceIdeal.RefVals.ref_eps1 _ _ _
    · rw [a0, a1, a2, a5]
      exact (Cert.ReferenceIdeal.RefVals.ref_spike _).trans (congrArg Cert.Spec.spike (Cert.ReferenceIdeal.RefVals.ref_vmem _ _ _ _))
    · rw [Cert.Head.ref_head m' c, a0, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
